-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x512 : Shape := ⟨3, ![2, 4096, 512]⟩
abbrev S512x512 : Shape := ⟨2, ![512, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S2x4096x512 .f32) (main_arg1 : FVec F S2x4096x512 .f32) (main_arg2 : FVec F S512x512 .f32) (main_arg3 : FVec F S512x512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S2x4096x512 .f32 := Host.absf main_arg1
  let main_cst_0 : FVec F S_ .f32 := constant S_ .f32 0x7F800000#32
  let main_v5 : FVec F S2x4096x512 .f32 := broadcastInDim S2x4096x512 ![] bcast_S_S2x4096x512 main_cst_0
  let main_v6 : IVec S2x4096x512 1 := cmpf .olt main_v4 main_v5
  let main_c_1 : IVec S_ 1 := constantI S_ 1 1#1
  let main_v7 : IVec S_ 1 := (fun x v => Host.reduce IntOp.andi x v reducesTo_S2x4096x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S2x4096x512 : Shape := ⟨3, ![2, 4096, 512]⟩
abbrev S512x512 : Shape := ⟨2, ![512, 512]⟩
abbrev S8192x512 : Shape := ⟨2, ![8192, 512]⟩
abbrev S1024x512 : Shape := ⟨2, ![1024, 512]⟩
abbrev S1x512x512 : Shape := ⟨3, ![1, 512, 512]⟩
abbrev S1x4096x512 : Shape := ⟨3, ![1, 4096, 512]⟩
abbrev S1x512x1 : Shape := ⟨3, ![1, 512, 1]⟩
abbrev S1x512 : Shape := ⟨2, ![1, 512]⟩

abbrev nBuf : Space → Nat
  | .hbm => 13
  | .vmem => 21
  | .smem => 0
  | _ => 0

abbrev bufTy : (tb : Table) → Fin (tcTables nBuf tb) → BufTy
  | .hbm, ⟨0, _⟩ => ⟨S2x4096x512, .f32⟩
  | .hbm, ⟨1, _⟩ => ⟨S2x4096x512, .f32⟩
  | .hbm, ⟨2, _⟩ => ⟨S512x512, .f32⟩
  | .hbm, ⟨3, _⟩ => ⟨S512x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S2x4096x512, .f32⟩
  | .hbm, ⟨8, _⟩ => ⟨S8192x512, .f32⟩
  | .hbm, ⟨9, _⟩ => ⟨S8192x512, .bf16⟩
  | .hbm, ⟨10, _⟩ => ⟨S2x4096x512, .f32⟩
  | .hbm, ⟨11, _⟩ => ⟨S2x4096x512, .bf16⟩
  | .hbm, ⟨12, _⟩ => ⟨S2x4096x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S512x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1x512x512, .f32⟩
  | .local _ .vmem, ⟨13, _⟩ => ⟨S1x512x512, .f32⟩
  | .local _ .vmem, ⟨14, _⟩ => ⟨S1x4096x512, .f32⟩
  | .local _ .vmem, ⟨15, _⟩ => ⟨S1x4096x512, .bf16⟩
  | .local _ .vmem, ⟨16, _⟩ => ⟨S1x512x512, .f32⟩
  | .local _ .vmem, ⟨17, _⟩ => ⟨S1x512x512, .f32⟩
  | .local _ .vmem, ⟨18, _⟩ => ⟨S1x512x1, .f32⟩
  | .local _ .vmem, ⟨19, _⟩ => ⟨S1x512x1, .f32⟩
  | .local _ .vmem, ⟨20, _⟩ => ⟨S1x512x512, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_scratch0 : Ref sig .tc := ⟨.vmem, 18, rfl⟩
abbrev cc2_scratch1 : Ref sig .tc := ⟨.vmem, 19, rfl⟩
abbrev cc2_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 8], ![false, false]⟩

@[reducible] def k2_t1_loop : Scf.Loop 32 :=
  let c0_i32 : BitVec 32 := 0#32
  let c8_i32 : BitVec 32 := 8#32
  let v14 : BitVec 32 := Scalar.addi c0_i32 c8_i32
  let c1_i32 : BitVec 32 := 1#32
  ⟨c0_i32, v14, c1_i32⟩
def k2_mult1 (k2_t1 : Fin k2_t1_loop.trips) : BitVec 32 :=
  let c0_i32_24 : BitVec 32 := 0#32
  let c0_i32 : BitVec 32 := 0#32
  let c1_i32 : BitVec 32 := 1#32
  let arg9 : BitVec 32 := Scf.iv c0_i32 c1_i32 k2_t1
  let c1_i32_23 : BitVec 32 := 1#32
  let v20 : BitVec 32 := Scalar.muli arg9 c1_i32_23
  let v21 : BitVec 32 := Scalar.addi c0_i32_24 v20
  let c512_i32 : BitVec 32 := 512#32
  let v22 : BitVec 32 := Scalar.muli v21 c512_i32
  v22
def k2_off1 (k2_t1 : Fin k2_t1_loop.trips) : Fin 3 → Nat :=
  let c0_25 : Index := 0#32
  let c0_i32_24 : BitVec 32 := 0#32
  let c0_i32 : BitVec 32 := 0#32
  let c1_i32 : BitVec 32 := 1#32
  let arg9 : BitVec 32 := Scf.iv c0_i32 c1_i32 k2_t1
  let c1_i32_23 : BitVec 32 := 1#32
  let v20 : BitVec 32 := Scalar.muli arg9 c1_i32_23
  let v21 : BitVec 32 := Scalar.addi c0_i32_24 v20
  let c512_i32 : BitVec 32 := 512#32
  let v22 : BitVec 32 := Scalar.muli v21 c512_i32
  let v23 : BitVec 32 := v22
  let v24 : Index := Scalar.indexCast v23
  let c0_26 : Index := 0#32
  ![0, v24.toNat, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x4096x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S1x4096x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 2 → Memref sig .tc .vmem S1x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S2x4096x512_S8192x512 : S2x4096x512.ShapeCasts S8192x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S8192x512_S2x4096x512 : S8192x512.ShapeCasts S2x4096x512
  packedbf16_S1024x512_S1024x512_0_0 : (Rect.unit (s := S1024x512) ![0, 0] S1024x512.size inb_S1024x512_S1024x512_0_0).PackedRows (EltTy.packing .bf16)
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  inb_S1x512x512_S1x512x512_0_0_0 : ∀ a, (![0, 0, 0] : Fin 3 → Nat) a + S1x512x512.size a ≤ S1x512x512.size a
  h_S1x512x512 : 0 < S1x512x512.numel
  shapeCasts_S1x512x512_S1x512x512 : S1x512x512.ShapeCasts S1x512x512
  reduces_S1x512x512_S1x512 : S1x512x512.Reduces [2] S1x512
  shapeCasts_S1x512_S1x512x1 : S1x512.ShapeCasts S1x512x1
  broadcasts_S1x512x1_S1x512x512 : S1x512x1.Broadcasts S1x512x512
  dot_S1024x512_S512x512_S1024x512_1_0_0_1_n_n_wf : DotDims.WF S1024x512 S512x512 S1024x512 [1] [0] [0] [1] [] []
  dot_S1x512x512_S1x512x512_S1x512x512_2_2_1_1_0_0_wf : DotDims.WF S1x512x512 S1x512x512 S1x512x512 [2] [2] [1] [1] [0] [0]
  dot_S1x512x512_S1x512x512_S1x512x512_2_1_1_2_0_0_wf : DotDims.WF S1x512x512 S1x512x512 S1x512x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .bf16 = 32 ∨ (Rect.block (s := S8192x512) S1024x512.size (cc1_transform_3 i) (hinb1_3 i)).WholeWords (EltTy.packing .bf16)
  hrank2 : 0 < grid2.rank
  k2_t1_ok : k2_t1_loop.OK
  k2_mult1_dvd : ∀ k2_t1 : Fin k2_t1_loop.trips, 512 ∣ (k2_mult1 k2_t1).toNat
  k2_off1_inb : ∀ k2_t1 : Fin k2_t1_loop.trips, ∀ a, (k2_off1 k2_t1) a + S1x512x512.size a ≤ S1x4096x512.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x512.size a ≤ S2x4096x512.size a
  hwx2_0 : ∀ i : grid2.Coords, EltTy.bits .f32 = 32 ∨ (Rect.block (s := S2x4096x512) S1x512x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x4096x512.size a ≤ S2x4096x512.size a
  hwx2_1 : ∀ i : grid2.Coords, EltTy.bits .f32 = 32 ∨ (Rect.block (s := S2x4096x512) S1x4096x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4096x512.size a ≤ S2x4096x512.size a
  hwx2_2 : ∀ i : grid2.Coords, EltTy.bits .bf16 = 32 ∨ (Rect.block (s := S2x4096x512) S1x4096x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x512.size a ≤ S2x4096x512.size a
  hwx2_3 : ∀ i : grid2.Coords, EltTy.bits .f32 = 32 ∨ (Rect.block (s := S2x4096x512) S1x512x512.size (cc2_transform_3 i) (hinb2_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1x512x512_S1x512x512_S1x512x512_2_2_1_1_0_0 : DotDims S1x512x512 S1x512x512 S1x512x512 where
  lhsContracting := [2]
  rhsContracting := [2]
  lhsNonContracting := [1]
  rhsNonContracting := [1]
  lhsBatch := [0]
  rhsBatch := [0]
  wf := dot_S1x512x512_S1x512x512_S1x512x512_2_2_1_1_0_0_wf
def dot_S1x512x512_S1x512x512_S1x512x512_2_1_1_2_0_0 : DotDims S1x512x512 S1x512x512 S1x512x512 where
  lhsContracting := [2]
  rhsContracting := [1]
  lhsNonContracting := [1]
  rhsNonContracting := [2]
  lhsBatch := [0]
  rhsBatch := [0]
  wf := dot_S1x512x512_S1x512x512_S1x512x512_2_1_1_2_0_0_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4_0) S1024x512.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_1) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S1x512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x4096x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x4096x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x4096x512 : Shape := ⟨3, ![2, 4096, 512]⟩
abbrev S512x512 : Shape := ⟨2, ![512, 512]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x4096x512, .f32⟩
  | .hbm, ⟨2, _⟩ => ⟨S512x512, .f32⟩
  | .hbm, ⟨3, _⟩ => ⟨S512x512, .f32⟩
  | .hbm, ⟨4, _⟩ => ⟨S2x4096x512, .f32⟩
  | .hbm, ⟨5, _⟩ => ⟨S2x4096x512, .f32⟩
  | .hbm, ⟨6, _⟩ => ⟨S2x4096x4096, .f32⟩
  | .hbm, ⟨7, _⟩ => ⟨S_, .f32⟩
  | .hbm, ⟨8, _⟩ => ⟨S2x4096, .f32⟩
  | .hbm, ⟨9, _⟩ => ⟨S_, .f32⟩
  | .hbm, ⟨10, _⟩ => ⟨S2x4096, .f32⟩
  | .hbm, ⟨11, _⟩ => ⟨S2x4096, .f32⟩
  | .hbm, ⟨12, _⟩ => ⟨S2x4096x1, .f32⟩
  | .hbm, ⟨13, _⟩ => ⟨S2x4096x4096, .f32⟩
  | .hbm, ⟨14, _⟩ => ⟨S2x4096x4096, .f32⟩
  | .hbm, ⟨15, _⟩ => ⟨S2x4096x4096, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S2x4096x4096, .f32⟩
  | .hbm, ⟨20, _⟩ => ⟨S2x4096x4096, .f32⟩
  | .hbm, ⟨21, _⟩ => ⟨S2x4096x512, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S2x4096x4096_S2x4096_d2 : S2x4096x4096.ReducesTo [2] S2x4096
  h_S_ : 0 < S_.numel
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x4096_0_1_2 : S2x4096x1.BroadcastsInDim S2x4096x4096 (![0, 1, 2] : Fin 3 → Fin S2x4096x4096.rank)
  dot_S2x4096x512_S512x512_S2x4096x512_2_0_01_1_n_n_wf : DotDims.WF S2x4096x512 S512x512 S2x4096x512 [2] [0] [0, 1] [1] [] []
  dot_S2x4096x512_S2x4096x512_S2x4096x4096_2_2_1_1_0_0_wf : DotDims.WF S2x4096x512 S2x4096x512 S2x4096x4096 [2] [2] [1] [1] [0] [0]
  dot_S2x4096x4096_S2x4096x512_S2x4096x512_2_1_1_2_0_0_wf : DotDims.WF S2x4096x4096 S2x4096x512 S2x4096x512 [2] [1] [1] [2] [0] [0]

variable [Facts₀]

def dot_S2x4096x512_S512x512_S2x4096x512_2_0_01_1_n_n : DotDims S2x4096x512 S512x512 S2x4096x512 where
  lhsContracting := [2]
  rhsContracting := [0]
  lhsNonContracting := [0, 1]
  rhsNonContracting := [1]
  lhsBatch := []
  rhsBatch := []
  wf := dot_S2x4096x512_S512x512_S2x4096x512_2_0_01_1_n_n_wf
def dot_S2x4096x512_S2x4096x512_S2x4096x4096_2_2_1_1_0_0 : DotDims S2x4096x512 S2x4096x512 S2x4096x4096 where
  lhsContracting := [2]
  rhsContracting := [2]
  lhsNonContracting := [1]
  rhsNonContracting := [1]
  lhsBatch := [0]
  rhsBatch := [0]
  wf := dot_S2x4096x512_S2x4096x512_S2x4096x4096_2_2_1_1_0_0_wf
def dot_S2x4096x4096_S2x4096x512_S2x4096x512_2_1_1_2_0_0 : DotDims S2x4096x4096 S2x4096x512 S2x4096x512 where
  lhsContracting := [2]
  rhsContracting := [1]
  lhsNonContracting := [1]
  rhsNonContracting := [2]
  lhsBatch := [0]
  rhsBatch := [0]
  wf := dot_S2x4096x4096_S2x4096x512_S2x4096x512_2_1_1_2_0_0_wf

class Facts : Prop extends Facts₀ where

variable [Facts]
-- ==== Proof.KernelRun.lean ====
/-
  The kernel program's run with its result named.

  @main is three kernel regions among reshapes. Every weakly fair execution from a memory with zero counters ends,
  without a fault, with every unscoped buffer at the contents the fold through @main gives it (`W6`): the four
  argument arrays as launched, and the result buffer at what the third region's write-backs leave. This is the
  frame's launch over the same segments, read at the result buffer as well as at the arguments.
-/
import proofs.«124495_j22789096472738_2_alg».proof.Proof.Gen.KernelIdeal.Frame

set_option maxRecDepth 16384

noncomputable section

namespace Cert.Attn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v7) = W6 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v7 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.Attn.Run

end
-- ==== Proof.Spec.lean ====
/-
  The specification both programs meet, over the real numbers.

  With Q = query · W_q and K = key · W_k (rows of 512 features), the score of query row q against key row k of
  batch b is ⟨Q[b,q,:], K[b,k,:]⟩, and the result is the softmax-weighted mean of the UNPROJECTED key rows:

      out[b,q,e] = (Σ_k exp(score b q k) · key[b,k,e]) / (Σ_k exp(score b q k)).

  A softmax is unchanged by subtracting any real number from a row's scores, so this unshifted form is what both
  the max-shifted softmax and the tile-by-tile running (online) softmax compute on finite inputs. The arrays are
  extended-real valued; the specification reads their real parts, which is all of them once every entry is real
  (`IsReal`).
-/
import Idealize.ShloMosaic.PureOps.Ideal
import Idealize.ShloMosaic.Lib.ValueIdx

noncomputable section

namespace Cert.Attn

open Idealize.ShloMosaic Idealize.ShloMosaic.ValueIdx

/-- The activations' shape [batch, sequence, features]. -/
abbrev SA : Shape := ⟨3, ![2, 4096, 512]⟩
/-- A projection matrix' shape. -/
abbrev SW : Shape := ⟨2, ![512, 512]⟩

/-- Every entry of an array of extended reals is a real number. -/
def IsReal {S : Shape} (x : S.Idx → EReal) : Prop := ∀ i, ∃ r : ℝ, x i = (r : EReal)

theorem IsReal.coe_toReal {S : Shape} {x : S.Idx → EReal} (h : IsReal x) (i : S.Idx) : ((x i).toReal : EReal) = x i := by
  obtain ⟨r, hr⟩ := h i; rw [hr, EReal.toReal_coe]

/-- Row s of batch b of x, projected by w, at feature e: Σ_d x[b,s,d] · w[d,e]. -/
def proj (x : SA.Idx → EReal) (w : SW.Idx → EReal) (b : Fin 2) (s : Fin 4096) (e : Fin 512) : ℝ :=
  ∑ d : Fin 512, (x (ix3 b s d)).toReal * (w (ix2 d e)).toReal

/-- The unscaled score of query row q against key row k in batch b. -/
def score (query key : SA.Idx → EReal) (wq wk : SW.Idx → EReal) (b : Fin 2) (q k : Fin 4096) : ℝ :=
  ∑ d : Fin 512, proj query wq b q d * proj key wk b k d

/-- The attention output over the reals, with the unprojected key rows as values. -/
def out (query key : SA.Idx → EReal) (wq wk : SW.Idx → EReal) (b : Fin 2) (q : Fin 4096) (e : Fin 512) : ℝ :=
  (∑ k : Fin 4096, Real.exp (score query key wq wk b q k) * (key (ix3 b k e)).toReal)
    / (∑ k : Fin 4096, Real.exp (score query key wq wk b q k))

/-- The result array: `out` at each index, as an extended real. -/
def G (query key : SA.Idx → EReal) (wq wk : SW.Idx → EReal) : SA.Idx → EReal :=
  fun i => ((out query key wq wk (i 0) (i 1) (i 2) : ℝ) : EReal)

theorem G_apply (query key : SA.Idx → EReal) (wq wk : SW.Idx → EReal) (b : Fin 2) (q : Fin 4096) (e : Fin 512) :
    G query key wq wk (ix3 b q e) = ((out query key wq wk b q e : ℝ) : EReal) := rfl

end Cert.Attn

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibAttnOps.lean ====
/-
  Reading the array operations of a batched attention at an entry, on the extended reals.

  * A batched product of rows against rows, [n, a, d] x [n, b, d] -> [n, a, b] (the einsum "tqd,tkd->tqk"), accumulated
    onto the zero array, is at (w, p, q) the sum over k of left (w, p, k) * right (w, q, k).
  * A batched product of rows against columns, [n, a, k] x [n, k, d] -> [n, a, d] ("tqk,tkd->tqd"), onto zero, is at
    (w, p, e) the sum over j of left (w, p, j) * right (w, j, e).
  * A maximum from -inf over the last axis of a three-axis array is at (w, p) the fold of max over the entries (w, p, j);
    the host's maximum over the last axis of a four-axis array is at (b, h, p) the fold of max from the initial value.
  * Merging the two leading axes [a, b, c] -> [a b, c], or splitting them back, moves no entry: row p b + q is (p, q).
  * A [1, b, c] array seen as [b, c], as [1, b, c] again and repeated to [a, b, c] reads at (w, i, j) its entry (0, i, j);
    a vector of c entries seen as [1, c] and repeated to [N, c] reads at (n, r) its entry r.
  * Four arrays [a, b, k] laid side by side along the last axis read at column n k + e the n-th array's column e.
  All extents are variables.
-/
import Idealize.ShloMosaic.Lib.ValueIdx
import Idealize.ShloMosaic.Lib.Pipeline.Value
import Idealize.ShloMosaic.PureOps.Ideal.Laws

noncomputable section

open scoped BigOperators

namespace Cert.AttnOps

open Idealize.ShloMosaic Idealize.ShloMosaic.ValueIdx

/-! ## The two batched products -/

/-- The dimension numbers of [n, a, d] x [n, b, d] -> [n, a, b]: batch axis 0, both last axes contracted. -/
abbrev dimsQK {n a b d : ℕ}
    (wf : DotDims.WF ⟨3, ![n, a, d]⟩ ⟨3, ![n, b, d]⟩ ⟨3, ![n, a, b]⟩ [2] [2] [1] [1] [0] [0]) :
    DotDims ⟨3, ![n, a, d]⟩ ⟨3, ![n, b, d]⟩ ⟨3, ![n, a, b]⟩ :=
  ⟨[2], [2], [1], [1], [0], [0], wf⟩

/-- Rows against rows, batched, onto zero: at (w, p, q) the dot product of row (w, p) of the left factor with row
    (w, q) of the right one. -/
theorem rows_rows_apply {n a b d : ℕ} {φ₁ φ₂ : FTy}
    (wf : DotDims.WF ⟨3, ![n, a, d]⟩ ⟨3, ![n, b, d]⟩ ⟨3, ![n, a, b]⟩ [2] [2] [1] [1] [0] [0])
    (prec : Option ContractPrecision) (L : FVec Ideal ⟨3, ![n, a, d]⟩ φ₁) (R : FVec Ideal ⟨3, ![n, b, d]⟩ φ₂)
    (w : Fin n) (p : Fin a) (q : Fin b) :
    FloatOps.matmul (dimsQK wf) prec L R (constant ⟨3, ![n, a, b]⟩ .f32 0x00000000#32) (ix3 w p q)
      = ∑ k : Fin d, L (ix3 w p k) * R (ix3 w q k) := by
  rw [Ideal.matmul_constant_zero_apply, ← Equiv.sum_comp (contrEquiv1 (dimsQK wf) d rfl rfl).symm]
  refine Finset.sum_congr rfl fun k _ => ?_
  have hk := contrEquiv1_symm_val (dimsQK wf) d rfl rfl k
  have el : (dimsQK wf).lhsIdx (ix3 w p q) ((contrEquiv1 (dimsQK wf) d rfl rfl).symm k) = ix3 w p k :=
    funext fun ax => Fin.ext (by
      match ax with
      | ⟨0, _⟩ => rfl
      | ⟨1, _⟩ => rfl
      | ⟨2, _⟩ => exact ((dimsQK wf).lhsIdx_val_of_single rfl _ _).trans hk)
  have er : (dimsQK wf).rhsIdx (ix3 w p q) ((contrEquiv1 (dimsQK wf) d rfl rfl).symm k) = ix3 w q k :=
    funext fun ax => Fin.ext (by
      match ax with
      | ⟨0, _⟩ => rfl
      | ⟨1, _⟩ => rfl
      | ⟨2, _⟩ => exact ((dimsQK wf).rhsIdx_val_of_single rfl _ _).trans hk)
  rw [el, er]

/-- The dimension numbers of [n, a, k] x [n, k, d] -> [n, a, d]: batch axis 0, the left's last axis against the right's
    middle one. -/
abbrev dimsAV {n a k d : ℕ}
    (wf : DotDims.WF ⟨3, ![n, a, k]⟩ ⟨3, ![n, k, d]⟩ ⟨3, ![n, a, d]⟩ [2] [1] [1] [2] [0] [0]) :
    DotDims ⟨3, ![n, a, k]⟩ ⟨3, ![n, k, d]⟩ ⟨3, ![n, a, d]⟩ :=
  ⟨[2], [1], [1], [2], [0], [0], wf⟩

/-- Rows against columns, batched, onto zero: at (w, p, e) the sum over j of left (w, p, j) * right (w, j, e). -/
theorem rows_cols_apply {n a k d : ℕ} {φ₁ φ₂ : FTy}
    (wf : DotDims.WF ⟨3, ![n, a, k]⟩ ⟨3, ![n, k, d]⟩ ⟨3, ![n, a, d]⟩ [2] [1] [1] [2] [0] [0])
    (prec : Option ContractPrecision) (L : FVec Ideal ⟨3, ![n, a, k]⟩ φ₁) (R : FVec Ideal ⟨3, ![n, k, d]⟩ φ₂)
    (w : Fin n) (p : Fin a) (e : Fin d) :
    FloatOps.matmul (dimsAV wf) prec L R (constant ⟨3, ![n, a, d]⟩ .f32 0x00000000#32) (ix3 w p e)
      = ∑ j : Fin k, L (ix3 w p j) * R (ix3 w j e) := by
  rw [Ideal.matmul_constant_zero_apply, ← Equiv.sum_comp (contrEquiv1 (dimsAV wf) k rfl rfl).symm]
  refine Finset.sum_congr rfl fun j _ => ?_
  have hj := contrEquiv1_symm_val (dimsAV wf) k rfl rfl j
  have el : (dimsAV wf).lhsIdx (ix3 w p e) ((contrEquiv1 (dimsAV wf) k rfl rfl).symm j) = ix3 w p j :=
    funext fun ax => Fin.ext (by
      match ax with
      | ⟨0, _⟩ => rfl
      | ⟨1, _⟩ => rfl
      | ⟨2, _⟩ => exact ((dimsAV wf).lhsIdx_val_of_single rfl _ _).trans hj)
  have er : (dimsAV wf).rhsIdx (ix3 w p e) ((contrEquiv1 (dimsAV wf) k rfl rfl).symm j) = ix3 w j e :=
    funext fun ax => Fin.ext (by
      match ax with
      | ⟨0, _⟩ => rfl
      | ⟨1, _⟩ => exact ((dimsAV wf).rhsIdx_val_of_single rfl _ _).trans hj
      | ⟨2, _⟩ => rfl)
  rw [el, er]

/-! ## Maxima over the last axis -/

/-- The maximum over the last axis of a three-axis array, from -inf: at (w, p) the fold of max over the entries
    (w, p, j). -/
theorem max_last3_apply {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0xFF800000#32 : BitVec 32) = 0xFF800000#32) (w : Fin n0) (p : Fin n1) :
    multiReduction .maximumf [2] ⟨2, ![n0, n1]⟩ src 0xFF800000#32 h hφ hacc (ix2 w p)
      = (Finset.univ : Finset (Fin n2)).fold max (Ideal.ofBits .f32 0xFF800000#32) (fun j => src (ix3 w p j)) :=
  (Ideal.multiReduction_maximumf_single src 0xFF800000#32 h hφ hacc (ix2 w p)).trans
    (Finset.fold_congr fun j _ => congrArg src (funext fun ax => Fin.ext (by
      match ax with
      | ⟨0, _⟩ => rfl
      | ⟨1, _⟩ => rfl
      | ⟨2, _⟩ => rfl)))

/-- The reduced index (b, h, p) with coordinate j put back on the last axis is (b, h, p, j). -/
theorem lift_last4 {n0 n1 n2 n3 : ℕ} (h : (⟨4, ![n0, n1, n2, n3]⟩ : Shape).Reduces [3] ⟨3, ![n0, n1, n2]⟩)
    (b : Fin n0) (hh : Fin n1) (p : Fin n2) (j : Fin ((⟨4, ![n0, n1, n2, n3]⟩ : Shape).size 3)) :
    h.lift (ix3 b hh p) j = ix4 b hh p (⟨j.val, j.isLt⟩ : Fin n3) := by
  funext ax; apply Fin.ext
  fin_cases ax <;> rfl

/-- The host's reduction with a maximum body over the last axis of a four-axis array: at (b, h, p) the fold of max from
    the initial value over the entries (b, h, p, j). -/
theorem host_max_last4_apply {n0 n1 n2 n3 : ℕ} (x : FVec Ideal ⟨4, ![n0, n1, n2, n3]⟩ .f32)
    (init : FVec Ideal ⟨0, ![]⟩ .f32)
    (h' : (⟨4, ![n0, n1, n2, n3]⟩ : Shape).ReducesTo [3] ⟨3, ![n0, n1, n2]⟩)
    (h : (⟨4, ![n0, n1, n2, n3]⟩ : Shape).Reduces [3] ⟨3, ![n0, n1, n2]⟩)
    (hu : 0 < (⟨0, ![]⟩ : Shape).numel) (b : Fin n0) (hh : Fin n1) (p : Fin n2) :
    Host.reduce FloatOps.maximumf x init h' hu (ix3 b hh p)
      = (Finset.univ : Finset (Fin n3)).fold max (init ix0) (fun j => x (ix4 b hh p j)) := by
  rw [Host.reduce_eq_fold_single FloatOps.maximumf x init h' h hu, eq_ix0 (Shape.Idx.first hu)]
  have hf : (x ∘ h.lift (ix3 b hh p)) = fun j : Fin n3 => x (ix4 b hh p j) :=
    funext fun j => congrArg x (lift_last4 h b hh p j)
  exact congrArg (fun f => Finset.fold max (init ix0) f (Finset.univ : Finset (Fin n3))) hf

/-! ## Re-laid arrays -/

variable {α : Type}

/-- [a, b, c] with its two leading axes merged into N = a b rows: row p b + q, column r, is the entry (p, q, r). -/
theorem merge_rows_apply {a b c N : ℕ} (v : (⟨3, ![a, b, c]⟩ : Shape).Idx → α)
    (h : (⟨3, ![a, b, c]⟩ : Shape).ShapeCasts ⟨2, ![N, c]⟩) (p : Fin a) (q : Fin b) (r : Fin c) (n : Fin N)
    (hn : n.val = p.val * b + q.val) :
    shapeCast ⟨2, ![N, c]⟩ v h (ix2 n r) = v (ix3 p q r) := by
  refine shapeCast_apply v h (ix2 n r) (ix3 p q r) ?_
  rw [Shape.rowMajor_val_two, Shape.rowMajor_val_three]
  show (p.val * b + q.val) * c + r.val = n.val * c + r.val
  rw [hn]

/-- [N, c] with its N = a b rows split into [a, b]: the entry (p, q, r) is row p b + q, column r. -/
theorem split_rows_apply {a b c N : ℕ} (v : (⟨2, ![N, c]⟩ : Shape).Idx → α)
    (h : (⟨2, ![N, c]⟩ : Shape).ShapeCasts ⟨3, ![a, b, c]⟩) (p : Fin a) (q : Fin b) (r : Fin c) (n : Fin N)
    (hn : n.val = p.val * b + q.val) :
    shapeCast ⟨3, ![a, b, c]⟩ v h (ix3 p q r) = v (ix2 n r) := by
  refine shapeCast_apply v h (ix3 p q r) (ix2 n r) ?_
  rw [Shape.rowMajor_val_two, Shape.rowMajor_val_three]
  show n.val * c + r.val = (p.val * b + q.val) * c + r.val
  rw [hn]

/-- A [1, b, c] array seen as [b, c], as [1, b, c] again, and repeated to [a, b, c]: at (w, i, j) its entry
    (0, i, j). -/
theorem slab_repeated_apply {a b c : ℕ} (v : (⟨3, ![1, b, c]⟩ : Shape).Idx → α)
    (h1 : (⟨3, ![1, b, c]⟩ : Shape).ShapeCasts ⟨2, ![b, c]⟩)
    (h2 : (⟨2, ![b, c]⟩ : Shape).ShapeCasts ⟨3, ![1, b, c]⟩)
    (h3 : (⟨3, ![1, b, c]⟩ : Shape).Broadcasts ⟨3, ![a, b, c]⟩) (w : Fin a) (i : Fin b) (j : Fin c) :
    broadcastTo ⟨3, ![a, b, c]⟩ (shapeCast ⟨3, ![1, b, c]⟩ (shapeCast ⟨2, ![b, c]⟩ v h1) h2) h3 (ix3 w i j)
      = v (ix3 (0 : Fin 1) i j) := by
  rw [shapeCast_shapeCast]
  refine broadcastTo_apply v h3 (ix3 w i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- A vector of c entries seen as [1, c] and repeated to [N, c]: at (n, r) its entry r. -/
theorem row_repeated_apply {N c : ℕ} (v : (⟨1, ![c]⟩ : Shape).Idx → α)
    (h1 : (⟨1, ![c]⟩ : Shape).ShapeCasts ⟨2, ![1, c]⟩)
    (h2 : (⟨2, ![1, c]⟩ : Shape).Broadcasts ⟨2, ![N, c]⟩) (n : Fin N) (r : Fin c) :
    broadcastTo ⟨2, ![N, c]⟩ (shapeCast ⟨2, ![1, c]⟩ v h1) h2 (ix2 n r) = v (ix1 r) := by
  refine (broadcastTo_apply _ h2 (ix2 n r) (ix2 (0 : Fin 1) r) fun ax => ?_).trans ?_
  · match ax with
    | ⟨0, _⟩ => rfl
    | ⟨1, _⟩ =>
      show r.val = if c = 1 then 0 else r.val
      split
      · have := r.isLt; omega
      · rfl
  · refine shapeCast_apply v h1 (ix2 (0 : Fin 1) r) (ix1 r) ?_
    rw [Shape.rowMajor_val_one, Shape.rowMajor_val_two]
    show r.val = 0 * c + r.val
    omega

/-- Four [a, b, k] arrays side by side along the last axis: column n k + e of the result is column e of the n-th. -/
theorem join4_apply {a b k K : ℕ} (x0 x1 x2 x3 : (⟨3, ![a, b, k]⟩ : Shape).Idx → α)
    (h : Shape.Concatenates (([⟨⟨3, ![a, b, k]⟩, x0⟩, ⟨⟨3, ![a, b, k]⟩, x1⟩, ⟨⟨3, ![a, b, k]⟩, x2⟩, ⟨⟨3, ![a, b, k]⟩, x3⟩] :
      List ((s : Shape) × (s.Idx → α))).map (·.1)) ⟨3, ![a, b, K]⟩ 2)
    (p : Fin a) (q : Fin b) (e : Fin k) (c : Fin K) :
    (c.val = e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x0 (ix3 p q e))
    ∧ (c.val = k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x1 (ix3 p q e))
    ∧ (c.val = k + k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x2 (ix3 p q e))
    ∧ (c.val = k + k + k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x3 (ix3 p q e)) := by
  have off : ∀ bx : Fin (⟨3, ![a, b, k]⟩ : Shape).rank, bx.cast (rfl : (⟨3, ![a, b, k]⟩ : Shape).rank = (⟨3, ![a, b, K]⟩ : Shape).rank) ≠ (2 : Fin 3) →
      ((ix3 p q e : (⟨3, ![a, b, k]⟩ : Shape).Idx) bx).val = ((ix3 p q c : (⟨3, ![a, b, K]⟩ : Shape).Idx) (bx.cast rfl)).val := by
    intro bx hb
    match bx with
    | ⟨0, _⟩ => rfl
    | ⟨1, _⟩ => rfl
    | ⟨2, _⟩ => exact absurd rfl hb
  refine ⟨fun hc => ?_, fun hc => ?_, fun hc => ?_, fun hc => ?_⟩
  · exact concatenate_apply_piece 2 _ h (ix3 p q c) 0 (by simp) _ x0 rfl rfl 0 rfl (ix3 p q e) off
      (by show 0 + e.val = c.val; omega)
  · exact concatenate_apply_piece 2 _ h (ix3 p q c) 1 (by simp) _ x1 rfl rfl k (by simp) (ix3 p q e) off
      (by show k + e.val = c.val; omega)
  · exact concatenate_apply_piece 2 _ h (ix3 p q c) 2 (by simp) _ x2 rfl rfl (k + k) (by simp) (ix3 p q e) off
      (by show k + k + e.val = c.val; omega)
  · exact concatenate_apply_piece 2 _ h (ix3 p q c) 3 (by simp) _ x3 rfl rfl (k + k + k) (by simp [Nat.add_assoc]) (ix3 p q e) off
      (by show k + k + k + e.val = c.val; omega)

end Cert.AttnOps

end
-- ==== Proof.ProjValue.lean ====
/-
  What the attention region finds in its three input arrays.

  The program first merges the leading two axes of the query and of the key ([2, 4096, 512] to [8192, 512]), then
  two projection regions run over eight blocks of 1024 rows: the first writes the merged query rows times the query
  weight; the second writes the merged key rows times the key weight and, beside it, the merged key rows themselves
  (a change of number format, which on the extended reals is the identity). The three results are split back to
  [2, 4096, 512]. Here: each kernel body's result as a plain matrix product of its two blocks; each output array
  after its region as ONE function of the arrays the region was entered with (the eight row blocks cover the array,
  and block t of the product is the product of block t of the rows with the whole weight); the re-laying steps read
  at an entry (row b · 4096 + s of the merged array is row (b, s)); and the chain from the launch memory to the
  third region's entry: entry (b, s, e) of the projected arrays is the sum over d of x (b, s, d) · w (d, e), and the
  third array is the key as launched.
-/
import proofs.«124495_j22789096472738_2_alg».proof.Proof.Gen.KernelIdeal.Frame
import proofs.«124495_j22789096472738_2_alg».proof.Proof.LibPlainMatmul
import proofs.«124495_j22789096472738_2_alg».proof.Proof.LibAttnOps
import Idealize.ShloMosaic.Lib.Pipeline.Value
import Idealize.ShloMosaic.Lib.Tactic

set_option maxRecDepth 16384

noncomputable section

open scoped BigOperators

namespace Cert.Attn.Proj

open Cert.KernelIdeal Cert.KernelIdeal.Gen Idealize.ShloMosaic Idealize.ShloMosaic.TcCoe Idealize.ShloMosaic.ValueIdx
open Idealize.ShloMosaic.Pipeline (Dat)

/-! ## The projection kernels' payload: a plain matrix product of the two loaded blocks -/

theorem zero_off2 : (![0, 0] : Fin 2 → Nat) = fun _ => 0 := funext fun a => by fin_cases a <;> rfl

/-- The first projection kernel leaves in its output buffer the product of its two input blocks: at (p, q) the sum
    over d of left (p, d) · right (d, q). -/
theorem out0_2_apply (x0 : Vec Ideal S1024x512 .f32) (x1 : Vec Ideal S512x512 .f32) (p : Fin 1024) (q : Fin 512) :
    out0_2 x0 x1 (ix2 p q) = ∑ d : Fin 512, x0 (ix2 p d) * x1 (ix2 d q) := by
  unfold out0_2
  rw [View.canon_unit_zero zero_off2]
  simp only [View.ld_unit_zero (S := S1024x512) zero_off2, View.ld_unit_zero (S := S512x512) zero_off2]
  unfold k0_pay1
  rw [shapeCast_self]
  exact Cert.PlainMatmul.zero_acc_apply dot_S1024x512_S512x512_S1024x512_1_0_0_1_n_n.wf none
    (truncf FTy.bf16 x0 bitsLt_bf16_f32) (truncf FTy.bf16 x1 bitsLt_bf16_f32) p q

/-- The same at any index of the block. -/
theorem out0_2_at (x0 : Vec Ideal S1024x512 .f32) (x1 : Vec Ideal S512x512 .f32) (j : S1024x512.Idx) :
    out0_2 x0 x1 j = ∑ d : Fin 512, x0 (ix2 (j 0) d) * x1 (ix2 d (j 1)) :=
  (congrArg (out0_2 x0 x1) (eq_ix2 j)).trans (out0_2_apply x0 x1 (j 0) (j 1))

/-! ## The rows of an [8192, 512] array times a [512, 512] weight -/

/-- At (r, e) the sum over d of A (r, d) · B (d, e). -/
def rowsTimes (A : S8192x512.Idx → EReal) (B : S512x512.Idx → EReal) : S8192x512.Idx → EReal := fun i =>
  ∑ d : Fin 512, A (ix2 (i 0) d) * B (ix2 d (i 1))

theorem rowsTimes_apply (A : S8192x512.Idx → EReal) (B : S512x512.Idx → EReal) (r : Fin 8192) (e : Fin 512) :
    rowsTimes A B (ix2 r e) = ∑ d : Fin 512, A (ix2 r d) * B (ix2 d e) := rfl

/-! ## Region 0: the whole product array, for any contents the region is entered with -/

section Region0
variable (V : (c : Dev nD) → (b : Ref sig .tc) → Buf (Elt Ideal) ((c : Thread nD τ).loc b))

/-- The index maps over the grid: the row windows sit at block t of 1024 rows, the weight window at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point t is rows 1024 t … 1024 t + 1023 of the array. -/
theorem iblk0_0_apply (c : Dev nD) (t : Fin cfg0.N) (x : S1024x512.Idx) (k : S8192x512.Idx)
    (hk0 : (k 0).val = 1024 * t.val + (x 0).val) (hk1 : (k 1).val = (x 1).val) :
    (iblk0 V c 0 t : Vec Ideal S1024x512 .f32) x = (V c main_v0 : S8192x512.Idx → EReal) k := by
  obtain ⟨e0, e1, -, -, -, -⟩ := idx0 t
  unfold iblk0
  rw [View.read_apply]
  show V c main_v0 _ = V c main_v0 _
  refine congrArg _ ?_
  funext a
  apply Fin.ext
  match a with
  | ⟨0, _⟩ => show win0_0.index t 0 * 1024 + 1 * (x 0).val = (k 0).val; rw [e0, hk0]; omega
  | ⟨1, _⟩ => show win0_0.index t 1 * 512 + 1 * (x 1).val = (k 1).val; rw [e1, hk1]; omega

/-- The weight window's block at every point is the weight. -/
theorem iblk0_1_apply (c : Dev nD) (t : Fin cfg0.N) (x k : S512x512.Idx)
    (hk0 : (k 0).val = (x 0).val) (hk1 : (k 1).val = (x 1).val) :
    (iblk0 V c 1 t : Vec Ideal S512x512 .f32) x = (V c main_arg2 : S512x512.Idx → EReal) k := by
  obtain ⟨-, -, e2, e3, -, -⟩ := idx0 t
  unfold iblk0
  rw [View.read_apply]
  show V c main_arg2 _ = V c main_arg2 _
  refine congrArg _ ?_
  funext a
  apply Fin.ext
  match a with
  | ⟨0, _⟩ => show win0_1.index t 0 * 512 + 1 * (x 0).val = (k 0).val; rw [e2, hk0]; omega
  | ⟨1, _⟩ => show win0_1.index t 1 * 512 + 1 * (x 1).val = (k 1).val; rw [e3, hk1]; omega

end Region0

section Region0Array
variable (V : (c : Dev nD) → (b : Ref sig .tc) → Buf (Elt Ideal) ((c : Thread nD τ).loc b))

/-- What point t writes back is block t of the product array. -/
theorem flushed0_2_eq (c : Dev nD) (t : Fin cfg0.N) :
    (dat0 V c).flushed 2 t = ((cfg0.win 2).blk t).view.read (Elt Ideal) (rowsTimes (V c main_v0) (V c main_arg2)) := by
  show (cfg0.win 2).cut (grid0.coords t) ((dat0 V c).after 2 t) = _
  rw [after0_2]
  obtain ⟨-, -, -, -, e4, e5⟩ := idx0 t
  funext j
  rw [View.read_apply]
  refine (out0_2_at (iblk0 V c 0 t) (iblk0 V c 1 t) _).trans ?_
  unfold rowsTimes
  refine Finset.sum_congr rfl fun d _ => ?_
  have hr : (((cfg0.win 2).blk t).view.emb j 0).val = 1024 * t.val + (j 0).val := by
    show win0_2.index t 0 * 1024 + 1 * (j 0).val = _; rw [e4]; omega
  have hc : (((cfg0.win 2).blk t).view.emb j 1).val = (j 1).val := by
    show win0_2.index t 1 * 512 + 1 * (j 1).val = _; rw [e5]; omega
  have h0 : iblk0 V c 0 t (ix2 ((cfg0.win 2).xinj (grid0.coords t) j 0) d)
      = V c main_v0 (ix2 (((cfg0.win 2).blk t).view.emb j 0) d) :=
    iblk0_0_apply V c t _ _ hr rfl
  have h1 : iblk0 V c 1 t (ix2 d ((cfg0.win 2).xinj (grid0.coords t) j 1))
      = V c main_arg2 (ix2 d (((cfg0.win 2).blk t).view.emb j 1)) :=
    iblk0_1_apply V c t _ _ rfl hc
  rw [h0, h1]

/-- An index of the array is in point t's block iff each coordinate is in the block's range on its axis. -/
theorem mem_blk0_2 (t : Fin cfg0.N) (i : S8192x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v2).slice (win0_2.rect t)).set ↔ _
  rw [View.set_slice_whole, Rect.mem_set_unit]
  exact Iff.rfl

/-- Every block of rows is some point's. -/
theorem idx0_onto : ∀ q : Fin 8, ∃ t : Fin cfg0.N, win0_2.index t = ![q.val, 0] :=
  (by decide +kernel : ∀ q : Fin 8, ∃ t : Fin grid0.N, win0_2.index t = ![q.val, 0])

/-- The eight blocks of 1024 rows cover the array: row r is in block r / 1024. -/
theorem cover0_2' (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  obtain ⟨t, ht⟩ := idx0_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- The product array after region 0, for any entry contents. -/
theorem final0_2 (c : Dev nD) : (dat0 V c).arrAt 2 cfg0.N = rowsTimes (V c main_v0) (V c main_arg2) :=
  (dat0 V c).arrAt_eq_of_cover 2 (rowsTimes (V c main_v0) (V c main_arg2)) (fun t _ => flushed0_2_eq V c t) cover0_2'

end Region0Array

/-! ## The second projection kernel: the same product, and a copy of its row block -/

/-- The second projection kernel leaves in its first output buffer the product of its two input blocks. -/
theorem out1_2_apply (x0 : Vec Ideal S1024x512 .f32) (x1 : Vec Ideal S512x512 .f32) (p : Fin 1024) (q : Fin 512) :
    out1_2 x0 x1 (ix2 p q) = ∑ d : Fin 512, x0 (ix2 p d) * x1 (ix2 d q) := by
  unfold out1_2
  rw [View.canon_unit_zero zero_off2]
  simp only [View.ld_unit_zero (S := S1024x512) zero_off2, View.ld_unit_zero (S := S512x512) zero_off2]
  unfold k1_pay2 k1_pay1
  rw [shapeCast_self]
  exact Cert.PlainMatmul.zero_acc_apply dot_S1024x512_S512x512_S1024x512_1_0_0_1_n_n.wf none
    (truncf FTy.bf16 x0 bitsLt_bf16_f32) (truncf FTy.bf16 x1 bitsLt_bf16_f32) p q

theorem out1_2_at (x0 : Vec Ideal S1024x512 .f32) (x1 : Vec Ideal S512x512 .f32) (j : S1024x512.Idx) :
    out1_2 x0 x1 j = ∑ d : Fin 512, x0 (ix2 (j 0) d) * x1 (ix2 d (j 1)) :=
  (congrArg (out1_2 x0 x1) (eq_ix2 j)).trans (out1_2_apply x0 x1 (j 0) (j 1))

/-- Its second output buffer holds the row block itself: on the extended reals a change of format is the identity. -/
theorem out1_3_at (x0 : Vec Ideal S1024x512 .f32) (x1 : Vec Ideal S512x512 .f32) (j : S1024x512.Idx) :
    (out1_3 x0 x1 : S1024x512.Idx → EReal) j = (x0 : S1024x512.Idx → EReal) j := by
  unfold out1_3
  rw [View.canon_unit_zero zero_off2]
  simp only [View.ld_unit_zero (S := S1024x512) zero_off2]
  unfold k1_pay3 k1_pay1
  rw [shapeCast_self]
  rfl

/-! ## Region 1: the product array and the copied array, for any contents the region is entered with -/

section Region1
variable (V : (c : Dev nD) → (b : Ref sig .tc) → Buf (Elt Ideal) ((c : Thread nD τ).loc b))

/-- The index maps over the grid: the row windows sit at block t of 1024 rows, the weight window at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The row window's block at point t is rows 1024 t … 1024 t + 1023 of the array. -/
theorem iblk1_0_apply (c : Dev nD) (t : Fin cfg1.N) (x : S1024x512.Idx) (k : S8192x512.Idx)
    (hk0 : (k 0).val = 1024 * t.val + (x 0).val) (hk1 : (k 1).val = (x 1).val) :
    (iblk1 V c 0 t : Vec Ideal S1024x512 .f32) x = (V c main_v1 : S8192x512.Idx → EReal) k := by
  obtain ⟨e0, e1, -, -, -, -, -, -⟩ := idx1 t
  unfold iblk1
  rw [View.read_apply]
  show V c main_v1 _ = V c main_v1 _
  refine congrArg _ ?_
  funext a
  apply Fin.ext
  match a with
  | ⟨0, _⟩ => show win1_0.index t 0 * 1024 + 1 * (x 0).val = (k 0).val; rw [e0, hk0]; omega
  | ⟨1, _⟩ => show win1_0.index t 1 * 512 + 1 * (x 1).val = (k 1).val; rw [e1, hk1]; omega

/-- The weight window's block at every point is the weight. -/
theorem iblk1_1_apply (c : Dev nD) (t : Fin cfg1.N) (x k : S512x512.Idx)
    (hk0 : (k 0).val = (x 0).val) (hk1 : (k 1).val = (x 1).val) :
    (iblk1 V c 1 t : Vec Ideal S512x512 .f32) x = (V c main_arg3 : S512x512.Idx → EReal) k := by
  obtain ⟨-, -, e2, e3, -, -, -, -⟩ := idx1 t
  unfold iblk1
  rw [View.read_apply]
  show V c main_arg3 _ = V c main_arg3 _
  refine congrArg _ ?_
  funext a
  apply Fin.ext
  match a with
  | ⟨0, _⟩ => show win1_1.index t 0 * 512 + 1 * (x 0).val = (k 0).val; rw [e2, hk0]; omega
  | ⟨1, _⟩ => show win1_1.index t 1 * 512 + 1 * (x 1).val = (k 1).val; rw [e3, hk1]; omega

/-- What point t writes back to the product array is block t of the rows times the weight. -/
theorem flushed1_2_eq (c : Dev nD) (t : Fin cfg1.N) :
    (dat1 V c).flushed 2 t = ((cfg1.win 2).blk t).view.read (Elt Ideal) (rowsTimes (V c main_v1) (V c main_arg3)) := by
  show (cfg1.win 2).cut (grid1.coords t) ((dat1 V c).after 2 t) = _
  rw [after1_2]
  obtain ⟨-, -, -, -, e4, e5, -, -⟩ := idx1 t
  funext j
  rw [View.read_apply]
  refine (out1_2_at (iblk1 V c 0 t) (iblk1 V c 1 t) _).trans ?_
  unfold rowsTimes
  refine Finset.sum_congr rfl fun d _ => ?_
  have hr : (((cfg1.win 2).blk t).view.emb j 0).val = 1024 * t.val + (j 0).val := by
    show win1_2.index t 0 * 1024 + 1 * (j 0).val = _; rw [e4]; omega
  have hc : (((cfg1.win 2).blk t).view.emb j 1).val = (j 1).val := by
    show win1_2.index t 1 * 512 + 1 * (j 1).val = _; rw [e5]; omega
  have h0 : iblk1 V c 0 t (ix2 ((cfg1.win 2).xinj (grid1.coords t) j 0) d)
      = V c main_v1 (ix2 (((cfg1.win 2).blk t).view.emb j 0) d) :=
    iblk1_0_apply V c t _ _ hr rfl
  have h1 : iblk1 V c 1 t (ix2 d ((cfg1.win 2).xinj (grid1.coords t) j 1))
      = V c main_arg3 (ix2 d (((cfg1.win 2).blk t).view.emb j 1)) :=
    iblk1_1_apply V c t _ _ rfl hc
  rw [h0, h1]

theorem mem_blk1_2 (t : Fin cfg1.N) (i : S8192x512.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v4_0).slice (win1_2.rect t)).set ↔ _
  rw [View.set_slice_whole, Rect.mem_set_unit]
  exact Iff.rfl

theorem idx1_2_onto : ∀ q : Fin 8, ∃ t : Fin cfg1.N, win1_2.index t = ![q.val, 0] :=
  (by decide +kernel : ∀ q : Fin 8, ∃ t : Fin grid1.N, win1_2.index t = ![q.val, 0])

theorem cover1_2' (i : S8192x512.Idx) :
    ∃ t : Fin cfg1.N, (cfg1.win 2).flush t = true ∧ i ∈ ((cfg1.win 2).blk t).view.set := by
  have hi0 : (i 0).val < 8192 := (i 0).isLt
  have hi1 : (i 1).val < 512 := (i 1).isLt
  obtain ⟨t, ht⟩ := idx1_2_onto ⟨(i 0).val / 1024, by omega⟩
  have q0 : win1_2.index t (0 : Fin 2) = (i 0).val / 1024 := congrFun ht 0
  have q1 : win1_2.index t (1 : Fin 2) = 0 := congrFun ht 1
  refine ⟨t, flush1_2 t, ?_⟩
  rw [mem_blk1_2]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 512 ≤ (i 1).val ∧ (i 1).val < win1_2.index t (1 : Fin 2) * 512 + 512; omega

/-- The product array after region 1, for any entry contents. -/
theorem final1_2 (c : Dev nD) : (dat1 V c).arrAt 2 cfg1.N = rowsTimes (V c main_v1) (V c main_arg3) :=
  (dat1 V c).arrAt_eq_of_cover 2 (rowsTimes (V c main_v1) (V c main_arg3)) (fun t _ => flushed1_2_eq V c t) cover1_2'

/-- What point t writes back to the copied array is block t of the rows. -/
theorem flushed1_3_eq (c : Dev nD) (t : Fin cfg1.N) :
    (dat1 V c).flushed 3 t = ((cfg1.win 3).blk t).view.read (Elt Ideal) (V c main_v1 : S8192x512.Idx → EReal) := by
  show (cfg1.win 3).cut (grid1.coords t) ((dat1 V c).after 3 t) = _
  rw [after1_3]
  obtain ⟨-, -, -, -, -, -, e6, e7⟩ := idx1 t
  funext j
  rw [View.read_apply]
  refine (out1_3_at (iblk1 V c 0 t) (iblk1 V c 1 t) _).trans ?_
  have hr : (((cfg1.win 3).blk t).view.emb j 0).val = 1024 * t.val + (j 0).val := by
    show win1_3.index t 0 * 1024 + 1 * (j 0).val = _; rw [e6]; omega
  have hc : (((cfg1.win 3).blk t).view.emb j 1).val = (j 1).val := by
    show win1_3.index t 1 * 512 + 1 * (j 1).val = _; rw [e7]; omega
  exact iblk1_0_apply V c t _ _ hr hc

theorem mem_blk1_3 (t : Fin cfg1.N) (i : S8192x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v4_1).slice (win1_3.rect t)).set ↔ _
  rw [View.set_slice_whole, Rect.mem_set_unit]
  exact Iff.rfl

theorem idx1_3_onto : ∀ q : Fin 8, ∃ t : Fin cfg1.N, win1_3.index t = ![q.val, 0] :=
  (by decide +kernel : ∀ q : Fin 8, ∃ t : Fin grid1.N, win1_3.index t = ![q.val, 0])

theorem cover1_3' (i : S8192x512.Idx) :
    ∃ t : Fin cfg1.N, (cfg1.win 3).flush t = true ∧ i ∈ ((cfg1.win 3).blk t).view.set := by
  have hi0 : (i 0).val < 8192 := (i 0).isLt
  have hi1 : (i 1).val < 512 := (i 1).isLt
  obtain ⟨t, ht⟩ := idx1_3_onto ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [mem_blk1_3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- The copied array after region 1, for any entry contents: the rows themselves. -/
theorem final1_3 (c : Dev nD) : ((dat1 V c).arrAt 3 cfg1.N : S8192x512.Idx → EReal) = (V c main_v1 : S8192x512.Idx → EReal) :=
  (dat1 V c).arrAt_eq_of_cover 3 (V c main_v1 : S8192x512.Idx → EReal) (fun t _ => flushed1_3_eq V c t) cover1_3'

end Region1

/-! ## The run: what the third region finds in its three input arrays -/

section Run
variable (m : (ℓ : Loc nD τ sig) → Buf (Elt Ideal) ℓ) (ρ : Dev nD → PrngReg)

/-- Region 0 is entered with the query rows merged: the [8192, 512] array is the [2, 4096, 512] argument re-laid. -/
theorem V1_v0 (c : Dev nD) : (V1 (F := Ideal) m ρ c main_v0 : S8192x512.Idx → EReal)
    = shapeCast S8192x512 (m ((c : Thread nD τ).loc main_arg0)) shapeCasts_S2x4096x512_S8192x512 := by
  dsimp only [V1, W1, hostOps0]; after_results; rfl

/-- Likewise the key rows. -/
theorem V1_v1 (c : Dev nD) : (V1 (F := Ideal) m ρ c main_v1 : S8192x512.Idx → EReal)
    = shapeCast S8192x512 (m ((c : Thread nD τ).loc main_arg1)) shapeCasts_S2x4096x512_S8192x512 := by
  dsimp only [V1, W1, hostOps0]; after_results; rfl

/-- The query weight is as launched when region 0 is entered. -/
theorem V1_arg2 (c : Dev nD) : (V1 (F := Ideal) m ρ c main_arg2 : S512x512.Idx → EReal)
    = m ((c : Thread nD τ).loc main_arg2) := by
  dsimp only [V1, W1, hostOps0]; after_results

/-- The key weight is as launched when region 0 is entered. -/
theorem V1_arg3 (c : Dev nD) : (V1 (F := Ideal) m ρ c main_arg3 : S512x512.Idx → EReal)
    = m ((c : Thread nD τ).loc main_arg3) := by
  dsimp only [V1, W1, hostOps0]; after_results

/-- After region 0 its output array is the merged query rows times the query weight. -/
theorem V2_v2 (c : Dev nD) : (V2 (F := Ideal) m ρ c main_v2 : S8192x512.Idx → EReal)
    = rowsTimes (shapeCast S8192x512 (m ((c : Thread nD τ).loc main_arg0)) shapeCasts_S2x4096x512_S8192x512)
        (m ((c : Thread nD τ).loc main_arg2)) := by
  have h : (V2 (F := Ideal) m ρ c main_v2 : S8192x512.Idx → EReal)
      = rowsTimes (V1 (F := Ideal) m ρ c main_v0) (V1 (F := Ideal) m ρ c main_arg2) :=
    (W2_arr (F := Ideal) m ρ c 2).trans (final0_2 (V1 (F := Ideal) m ρ) c)
  rw [V1_v0, V1_arg2] at h
  exact h

/-- Region 0 leaves the merged key rows and the key weight as it found them. -/
theorem V2_v1 (c : Dev nD) : (V2 (F := Ideal) m ρ c main_v1 : S8192x512.Idx → EReal)
    = shapeCast S8192x512 (m ((c : Thread nD τ).loc main_arg1)) shapeCasts_S2x4096x512_S8192x512 :=
  (W2_of_ne (F := Ideal) m ρ c main_v1 (by decide)).trans (V1_v1 m ρ c)

theorem V2_arg3 (c : Dev nD) : (V2 (F := Ideal) m ρ c main_arg3 : S512x512.Idx → EReal)
    = m ((c : Thread nD τ).loc main_arg3) :=
  (W2_of_ne (F := Ideal) m ρ c main_arg3 (by decide)).trans (V1_arg3 m ρ c)

/-- Region 1 is entered with the projected query rows split back to [2, 4096, 512] … -/
theorem V3_v3 (c : Dev nD) : (V3 (F := Ideal) m ρ c main_v3 : S2x4096x512.Idx → EReal)
    = shapeCast S2x4096x512 (V2 (F := Ideal) m ρ c main_v2 : S8192x512.Idx → EReal) shapeCasts_S8192x512_S2x4096x512 := by
  dsimp only [V3, W3, hostOps1]; after_results; rfl

/-- … and the key rows and key weight untouched by that re-laying. -/
theorem V3_v1 (c : Dev nD) : (V3 (F := Ideal) m ρ c main_v1 : S8192x512.Idx → EReal)
    = (V2 (F := Ideal) m ρ c main_v1 : S8192x512.Idx → EReal) := by
  dsimp only [V3, W3, hostOps1]; after_results

theorem V3_arg3 (c : Dev nD) : (V3 (F := Ideal) m ρ c main_arg3 : S512x512.Idx → EReal)
    = (V2 (F := Ideal) m ρ c main_arg3 : S512x512.Idx → EReal) := by
  dsimp only [V3, W3, hostOps1]; after_results

/-- After region 1 its first output array is the merged key rows times the key weight … -/
theorem V4_v4_0 (c : Dev nD) : (V4 (F := Ideal) m ρ c main_v4_0 : S8192x512.Idx → EReal)
    = rowsTimes (shapeCast S8192x512 (m ((c : Thread nD τ).loc main_arg1)) shapeCasts_S2x4096x512_S8192x512)
        (m ((c : Thread nD τ).loc main_arg3)) := by
  have h : (V4 (F := Ideal) m ρ c main_v4_0 : S8192x512.Idx → EReal)
      = rowsTimes (V3 (F := Ideal) m ρ c main_v1) (V3 (F := Ideal) m ρ c main_arg3) :=
    (W4_arr (F := Ideal) m ρ c 2).trans (final1_2 (V3 (F := Ideal) m ρ) c)
  rw [V3_v1, V3_arg3, V2_v1, V2_arg3] at h
  exact h

/-- … its second the merged key rows themselves … -/
theorem V4_v4_1 (c : Dev nD) : (V4 (F := Ideal) m ρ c main_v4_1 : S8192x512.Idx → EReal)
    = shapeCast S8192x512 (m ((c : Thread nD τ).loc main_arg1)) shapeCasts_S2x4096x512_S8192x512 := by
  have h : (V4 (F := Ideal) m ρ c main_v4_1 : S8192x512.Idx → EReal)
      = (V3 (F := Ideal) m ρ c main_v1 : S8192x512.Idx → EReal) :=
    (W4_arr (F := Ideal) m ρ c 3).trans (final1_3 (V3 (F := Ideal) m ρ) c)
  rw [V3_v1, V2_v1] at h
  exact h

/-- … and the projected query rows are as region 1 found them. -/
theorem V4_v3 (c : Dev nD) : (V4 (F := Ideal) m ρ c main_v3 : S2x4096x512.Idx → EReal)
    = (V3 (F := Ideal) m ρ c main_v3 : S2x4096x512.Idx → EReal) :=
  W4_of_ne (F := Ideal) m ρ c main_v3 (by decide)

/-- Region 2 is entered with the projected query rows as region 1 left them, … -/
theorem V5_v3 (c : Dev nD) : (V5 (F := Ideal) m ρ c main_v3 : S2x4096x512.Idx → EReal)
    = (V4 (F := Ideal) m ρ c main_v3 : S2x4096x512.Idx → EReal) := by
  dsimp only [V5, W5, hostOps2]; after_results

/-- … the projected key rows split back to [2, 4096, 512], … -/
theorem V5_v5 (c : Dev nD) : (V5 (F := Ideal) m ρ c main_v5 : S2x4096x512.Idx → EReal)
    = shapeCast S2x4096x512 (V4 (F := Ideal) m ρ c main_v4_0 : S8192x512.Idx → EReal) shapeCasts_S8192x512_S2x4096x512 := by
  dsimp only [V5, W5, hostOps2]; after_results; rfl

/-- … and the copied key rows split back to [2, 4096, 512]. -/
theorem V5_v6 (c : Dev nD) : (V5 (F := Ideal) m ρ c main_v6 : S2x4096x512.Idx → EReal)
    = shapeCast S2x4096x512 (V4 (F := Ideal) m ρ c main_v4_1 : S8192x512.Idx → EReal) shapeCasts_S8192x512_S2x4096x512 := by
  dsimp only [V5, W5, hostOps2]; after_results; rfl

end Run

/-! ## The three arrays at an entry -/

/-- Entry (b, s, e) of an array of rows [2, 4096, 512] projected by a [512, 512] weight: the sum over d of
    x (b, s, d) · w (d, e), on the extended reals. -/
def projE (x : S2x4096x512.Idx → EReal) (w : S512x512.Idx → EReal) (b : Fin 2) (s : Fin 4096) (e : Fin 512) : EReal :=
  ∑ d : Fin 512, x (ix3 b s d) * w (ix2 d e)

theorem projE_def (x : S2x4096x512.Idx → EReal) (w : S512x512.Idx → EReal) (b : Fin 2) (s : Fin 4096) (e : Fin 512) :
    projE x w b s e = ∑ d : Fin 512, x (ix3 b s d) * w (ix2 d e) := rfl

/-- Row b · 4096 + s of the merged [8192, 512] array is row (b, s) of the [2, 4096, 512] array. -/
def row (b : Fin 2) (s : Fin 4096) : Fin 8192 :=
  ⟨b.val * 4096 + s.val, by have := b.isLt; have := s.isLt; omega⟩

/-- The merged rows times a weight, split back: entry (b, s, e) is the projection of row (b, s). -/
theorem split_rowsTimes_merge (x : S2x4096x512.Idx → EReal) (w : S512x512.Idx → EReal)
    (b : Fin 2) (s : Fin 4096) (e : Fin 512) :
    shapeCast S2x4096x512 (rowsTimes (shapeCast S8192x512 x shapeCasts_S2x4096x512_S8192x512) w)
        shapeCasts_S8192x512_S2x4096x512 (ix3 b s e) = projE x w b s e := by
  rw [Cert.AttnOps.split_rows_apply _ _ b s e (row b s) rfl, rowsTimes_apply]
  unfold projE
  refine Finset.sum_congr rfl fun d _ => ?_
  rw [Cert.AttnOps.merge_rows_apply _ _ b s d (row b s) rfl]

/-- The merged rows split back are the rows. -/
theorem split_merge (x : S2x4096x512.Idx → EReal) (b : Fin 2) (s : Fin 4096) (e : Fin 512) :
    shapeCast S2x4096x512 (shapeCast S8192x512 x shapeCasts_S2x4096x512_S8192x512)
        shapeCasts_S8192x512_S2x4096x512 (ix3 b s e) = x (ix3 b s e) := by
  rw [Cert.AttnOps.split_rows_apply _ _ b s e (row b s) rfl, Cert.AttnOps.merge_rows_apply _ _ b s e (row b s) rfl]

section Final
variable (m : (ℓ : Loc nD τ sig) → Buf (Elt Ideal) ℓ) (ρ : Dev nD → PrngReg)

/-- The third region finds in its first array the projected query rows: entry (b, s, e) is the sum over d of
    query (b, s, d) · W_q (d, e). -/
theorem V5_q (c : Dev nD) (b : Fin 2) (s : Fin 4096) (e : Fin 512) :
    (V5 (F := Ideal) m ρ c main_v3 : S2x4096x512.Idx → EReal) (ix3 b s e)
      = projE (m ((c : Thread nD τ).loc main_arg0)) (m ((c : Thread nD τ).loc main_arg2)) b s e := by
  rw [V5_v3, V4_v3, V3_v3, V2_v2]
  exact split_rowsTimes_merge _ _ b s e

/-- In its second array the projected key rows: entry (b, s, e) is the sum over d of key (b, s, d) · W_k (d, e). -/
theorem V5_k (c : Dev nD) (b : Fin 2) (s : Fin 4096) (e : Fin 512) :
    (V5 (F := Ideal) m ρ c main_v5 : S2x4096x512.Idx → EReal) (ix3 b s e)
      = projE (m ((c : Thread nD τ).loc main_arg1)) (m ((c : Thread nD τ).loc main_arg3)) b s e := by
  rw [V5_v5, V4_v4_0]
  exact split_rowsTimes_merge _ _ b s e

/-- In its third array the key rows themselves. -/
theorem V5_v (c : Dev nD) (b : Fin 2) (s : Fin 4096) (e : Fin 512) :
    (V5 (F := Ideal) m ρ c main_v6 : S2x4096x512.Idx → EReal) (ix3 b s e)
      = (m ((c : Thread nD τ).loc main_arg1) : S2x4096x512.Idx → EReal) (ix3 b s e) := by
  rw [V5_v6, V4_v4_1]
  exact split_merge _ b s e

/-- The same three facts with the sums written out, over the two launch arrays named as functions. -/
theorem V5_q_sum (c : Dev nD) (x : S2x4096x512.Idx → EReal) (w : S512x512.Idx → EReal)
    (hx : x = m ((c : Thread nD τ).loc main_arg0)) (hw : w = m ((c : Thread nD τ).loc main_arg2))
    (b : Fin 2) (s : Fin 4096) (e : Fin 512) :
    (V5 (F := Ideal) m ρ c main_v3 : S2x4096x512.Idx → EReal) (ix3 b s e)
      = ∑ d : Fin 512, x (ix3 b s d) * w (ix2 d e) := by
  subst hx hw; exact V5_q m ρ c b s e

theorem V5_k_sum (c : Dev nD) (x : S2x4096x512.Idx → EReal) (w : S512x512.Idx → EReal)
    (hx : x = m ((c : Thread nD τ).loc main_arg1)) (hw : w = m ((c : Thread nD τ).loc main_arg3))
    (b : Fin 2) (s : Fin 4096) (e : Fin 512) :
    (V5 (F := Ideal) m ρ c main_v5 : S2x4096x512.Idx → EReal) (ix3 b s e)
      = ∑ d : Fin 512, x (ix3 b s d) * w (ix2 d e) := by
  subst hx hw; exact V5_k m ρ c b s e

/-- As functions of the whole index. -/
theorem V5_q_fun (c : Dev nD) : (V5 (F := Ideal) m ρ c main_v3 : S2x4096x512.Idx → EReal)
    = fun i => projE (m ((c : Thread nD τ).loc main_arg0)) (m ((c : Thread nD τ).loc main_arg2)) (i 0) (i 1) (i 2) :=
  funext fun i => by
    rw [eq_ix3 i]; exact V5_q m ρ c (i 0) (i 1) (i 2)

theorem V5_k_fun (c : Dev nD) : (V5 (F := Ideal) m ρ c main_v5 : S2x4096x512.Idx → EReal)
    = fun i => projE (m ((c : Thread nD τ).loc main_arg1)) (m ((c : Thread nD τ).loc main_arg3)) (i 0) (i 1) (i 2) :=
  funext fun i => by
    rw [eq_ix3 i]; exact V5_k m ρ c (i 0) (i 1) (i 2)

theorem V5_v_fun (c : Dev nD) : (V5 (F := Ideal) m ρ c main_v6 : S2x4096x512.Idx → EReal)
    = (m ((c : Thread nD τ).loc main_arg1) : S2x4096x512.Idx → EReal) :=
  funext fun i => by
    rw [eq_ix3 i]; exact V5_v m ρ c (i 0) (i 1) (i 2)

end Final

end Cert.Attn.Proj

end
-- ==== Proof.Region2Vec.lean ====
/-
  The attention kernel's body as a recurrence on whole vectors.

  At one grid point the body holds a block q of 512 query rows and, resident for the batch, the projected keys K
  and the values V (4096 rows each). It keeps three scratch vectors — per query row the running maximum M and the
  running normalizer L (512×1 each) and the running weighted sum of value rows A (512×512) — started at
  (−∞, 0, 0), visits the keys in 8 tiles of 512 rows, each visit replacing (M, L, A) by `next` of the tile, and
  stores A / L. This module reads that recurrence off the body's run: one trip of the loop leaves in
  each scratch buffer ONE whole-buffer piece, a function of what the trip found there; the pieces of the trips
  before trip k, written over the entry contents, therefore read back as the k-fold iterate `iter`.
-/
import proofs.«124495_j22789096472738_2_alg».proof.Proof.Gen.KernelIdeal.Frame
import Idealize.ShloMosaic.Lib.Pipeline.Value

set_option maxRecDepth 16384

noncomputable section

namespace Cert.Attn.R2

open Idealize.ShloMosaic Idealize.ShloMosaic.TcCoe Idealize.SL.Sem
open Cert.KernelIdeal Cert.KernelIdeal.Gen

variable {F : FTy → Type} [FloatOps F]

theorem zero3 : (![0, 0, 0] : Fin 3 → Nat) = fun _ => 0 := by
  funext a; match a with | ⟨0, _⟩ => rfl | ⟨1, _⟩ => rfl | ⟨2, _⟩ => rfl

/-- A store of a whole buffer, made last, reads back as its payload, whatever was written before. -/
theorem read_store_whole {S : Shape} {e : EltTy} (v : View sig .tc .vmem S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-- Tile k (rows 512·k … 512·k+511) of an array resident for the batch. -/
def tile {e : EltTy} (X : Vec F S1x4096x512 e) (k : Fin k2_t1_loop.trips) : Vec F S1x512x512 e :=
  View.ld X (Rect.unit (k2_off1 k) S1x512x512.size (k2_off1_inb k))

/-- The running maximum after a tile: the old one against the tile's row maxima of q·ktᵀ. -/
def nextM (q kt : Vec F S1x512x512 .f32) (m : Vec F S1x512x1 .f32) : Vec F S1x512x1 .f32 :=
  k2_pay6 (k2_pay9 (k2_pay4 q) kt m)
/-- The running normalizer after a tile. -/
def nextL (q kt : Vec F S1x512x512 .f32) (m l : Vec F S1x512x1 .f32) : Vec F S1x512x1 .f32 :=
  k2_pay12 (k2_pay4 q) kt m l
/-- The running weighted sum of value rows after a tile. -/
def nextA (q kt : Vec F S1x512x512 .f32) (vt : Vec F S1x512x512 .bf16) (m : Vec F S1x512x1 .f32)
    (a : Vec F S1x512x512 .f32) : Vec F S1x512x512 .f32 :=
  k2_pay5 (k2_pay13 (k2_pay4 q) kt vt m a)

/-- The three scratch vectors. -/
structure St (F : FTy → Type) where
  M : Vec F S1x512x1 .f32
  L : Vec F S1x512x1 .f32
  A : Vec F S1x512x512 .f32

/-- The scratch vectors after the first k tiles, from the state s₀. -/
def iter (q : Vec F S1x512x512 .f32) (K : Vec F S1x4096x512 .f32) (V : Vec F S1x4096x512 .bf16) (s₀ : St F) : ℕ → St F
  | 0 => s₀
  | k + 1 =>
    if h : k < k2_t1_loop.trips then
      ⟨nextM q (tile K ⟨k, h⟩) (iter q K V s₀ k).M,
       nextL q (tile K ⟨k, h⟩) (iter q K V s₀ k).M (iter q K V s₀ k).L,
       nextA q (tile K ⟨k, h⟩) (tile V ⟨k, h⟩) (iter q K V s₀ k).M (iter q K V s₀ k).A⟩
    else iter q K V s₀ k

theorem iter_succ (q : Vec F S1x512x512 .f32) (K : Vec F S1x4096x512 .f32) (V : Vec F S1x4096x512 .bf16) (s₀ : St F)
    (k : Fin k2_t1_loop.trips) :
    iter q K V s₀ (k.val + 1) =
      ⟨nextM q (tile K k) (iter q K V s₀ k.val).M,
       nextL q (tile K k) (iter q K V s₀ k.val).M (iter q K V s₀ k.val).L,
       nextA q (tile K k) (tile V k) (iter q K V s₀ k.val).M (iter q K V s₀ k.val).A⟩ := by
  rw [iter]; exact dif_pos k.isLt

section Trip

variable (𝒱 : Variants) (c : Dev nD) (bd : Option 𝒱.V) (i : grid2.Coords)
  (arg2 : Memref sig .tc .vmem S1x512x512 .f32) (harg2 : arg2.IsWhole)
  (arg3 : Memref sig .tc .vmem S1x4096x512 .f32) (harg3 : arg3.IsWhole)
  (arg4 : Memref sig .tc .vmem S1x4096x512 .bf16) (harg4 : arg4.IsWhole)
  (arg5 : Memref sig .tc .vmem S1x512x512 .f32) (harg5 : arg5.IsWhole)
  (arg6 : Memref sig .tc .vmem S1x512x1 .f32) (harg6 : arg6.IsWhole)
  (arg7 : Memref sig .tc .vmem S1x512x1 .f32) (harg7 : arg7.IsWhole)
  (arg8 : Memref sig .tc .vmem S1x512x512 .f32) (harg8 : arg8.IsWhole)
  (v12 : Vec F S1x512x512 .f32)
  (X3 : BufTy.Contents (Elt F) arg3.view.ty) (X4 : BufTy.Contents (Elt F) arg4.view.ty)

/-- ONE TRIP, read once: over whatever the scratch buffers hold (f6, f7, f8), the trip's pieces written on top read
    back as `next` of the trip's tile and of what those contents read as. -/
theorem trip_read (k : Fin k2_t1_loop.trips)
    (f6 : BufTy.Contents (Elt F) arg6.view.ty) (f7 : BufTy.Contents (Elt F) arg7.view.ty)
    (f8 : BufTy.Contents (Elt F) arg8.view.ty) :
    arg6.view.read (Elt F) (arg6.view.writes (Elt F) f6
        (tripL_k2_t1 (F := F) 𝒱 c bd i arg2 harg2 arg3 harg3 arg4 harg4 arg5 harg5 arg6 harg6 arg7 harg7 arg8 harg8 v12 X3 X4 k f6 f7 f8).1)
      = nextM v12 (tile (arg3.view.read (Elt F) X3) k) (arg6.view.read (Elt F) f6)
    ∧ arg7.view.read (Elt F) (arg7.view.writes (Elt F) f7
        (tripL_k2_t1 (F := F) 𝒱 c bd i arg2 harg2 arg3 harg3 arg4 harg4 arg5 harg5 arg6 harg6 arg7 harg7 arg8 harg8 v12 X3 X4 k f6 f7 f8).2.1)
      = nextL v12 (tile (arg3.view.read (Elt F) X3) k) (arg6.view.read (Elt F) f6) (arg7.view.read (Elt F) f7)
    ∧ arg8.view.read (Elt F) (arg8.view.writes (Elt F) f8
        (tripL_k2_t1 (F := F) 𝒱 c bd i arg2 harg2 arg3 harg3 arg4 harg4 arg5 harg5 arg6 harg6 arg7 harg7 arg8 harg8 v12 X3 X4 k f6 f7 f8).2.2)
      = nextA v12 (tile (arg3.view.read (Elt F) X3) k) (tile (arg4.view.read (Elt F) X4) k)
          (arg6.view.read (Elt F) f6) (arg8.view.read (Elt F) f8) := by
  unfold tripL_k2_t1 trip_k2_t1
  dsimp only
  refine ⟨?_, ?_, ?_⟩
  · rw [read_store_whole _ _ zero3]
    unfold trip_k2_t1.sl.r
    simp only [View.readAt_eq_ld]
    rw [View.ld_unit_zero (S := S1x512x1) zero3]
    rfl
  · rw [read_store_whole _ _ zero3]
    simp only [View.readAt_eq_ld]
    rw [View.ld_unit_zero (S := S1x512x1) zero3, View.ld_unit_zero (S := S1x512x1) zero3]
    rfl
  · rw [read_store_whole _ _ zero3]
    unfold trip_k2_t1.sl.r_1
    simp only [View.readAt_eq_ld]
    rw [View.ld_unit_zero (S := S1x512x1) zero3, View.ld_unit_zero (S := S1x512x512) zero3]
    rfl

/-- THE TRIPS BEFORE k, by induction on k: their pieces written over the contents at loop entry read back as the
    k-fold iterate from what those contents read as. -/
theorem pb_read (G6 : BufTy.Contents (Elt F) arg6.view.ty) (G7 : BufTy.Contents (Elt F) arg7.view.ty)
    (G8 : BufTy.Contents (Elt F) arg8.view.ty) : ∀ k : ℕ, k ≤ k2_t1_loop.trips →
    arg6.view.read (Elt F) (arg6.view.writes (Elt F) G6
        (pb_k2_t1 (F := F) 𝒱 c bd i arg2 harg2 arg3 harg3 arg4 harg4 arg5 harg5 arg6 harg6 arg7 harg7 arg8 harg8 v12 X3 X4 G6 G7 G8 k).1)
      = (iter v12 (arg3.view.read (Elt F) X3) (arg4.view.read (Elt F) X4)
          ⟨arg6.view.read (Elt F) G6, arg7.view.read (Elt F) G7, arg8.view.read (Elt F) G8⟩ k).M
    ∧ arg7.view.read (Elt F) (arg7.view.writes (Elt F) G7
        (pb_k2_t1 (F := F) 𝒱 c bd i arg2 harg2 arg3 harg3 arg4 harg4 arg5 harg5 arg6 harg6 arg7 harg7 arg8 harg8 v12 X3 X4 G6 G7 G8 k).2.1)
      = (iter v12 (arg3.view.read (Elt F) X3) (arg4.view.read (Elt F) X4)
          ⟨arg6.view.read (Elt F) G6, arg7.view.read (Elt F) G7, arg8.view.read (Elt F) G8⟩ k).L
    ∧ arg8.view.read (Elt F) (arg8.view.writes (Elt F) G8
        (pb_k2_t1 (F := F) 𝒱 c bd i arg2 harg2 arg3 harg3 arg4 harg4 arg5 harg5 arg6 harg6 arg7 harg7 arg8 harg8 v12 X3 X4 G6 G7 G8 k).2.2)
      = (iter v12 (arg3.view.read (Elt F) X3) (arg4.view.read (Elt F) X4)
          ⟨arg6.view.read (Elt F) G6, arg7.view.read (Elt F) G7, arg8.view.read (Elt F) G8⟩ k).A
  | 0, _ => ⟨rfl, rfl, rfl⟩
  | k + 1, hk => by
    have ih := pb_read G6 G7 G8 k (Nat.le_of_succ_le hk)
    have e := pb_k2_t1_succ (F := F) 𝒱 c bd i arg2 harg2 arg3 harg3 arg4 harg4 arg5 harg5 arg6 harg6 arg7 harg7 arg8 harg8 v12 X3 X4 G6 G7 G8 ⟨k, hk⟩
    have es := iter_succ v12 (arg3.view.read (Elt F) X3) (arg4.view.read (Elt F) X4)
      ⟨arg6.view.read (Elt F) G6, arg7.view.read (Elt F) G7, arg8.view.read (Elt F) G8⟩ ⟨k, hk⟩
    have tr := trip_read (F := F) 𝒱 c bd i arg2 harg2 arg3 harg3 arg4 harg4 arg5 harg5 arg6 harg6 arg7 harg7 arg8 harg8 v12 X3 X4 ⟨k, hk⟩
      (arg6.view.writes (Elt F) G6 (pb_k2_t1 (F := F) 𝒱 c bd i arg2 harg2 arg3 harg3 arg4 harg4 arg5 harg5 arg6 harg6 arg7 harg7 arg8 harg8 v12 X3 X4 G6 G7 G8 k).1)
      (arg7.view.writes (Elt F) G7 (pb_k2_t1 (F := F) 𝒱 c bd i arg2 harg2 arg3 harg3 arg4 harg4 arg5 harg5 arg6 harg6 arg7 harg7 arg8 harg8 v12 X3 X4 G6 G7 G8 k).2.1)
      (arg8.view.writes (Elt F) G8 (pb_k2_t1 (F := F) 𝒱 c bd i arg2 harg2 arg3 harg3 arg4 harg4 arg5 harg5 arg6 harg6 arg7 harg7 arg8 harg8 v12 X3 X4 G6 G7 G8 k).2.2)
    dsimp only at e es
    rw [e, es]
    dsimp only
    rw [View.writes_append, View.writes_append, View.writes_append, tr.1, tr.2.1, tr.2.2, ih.1, ih.2.1, ih.2.2]
    exact ⟨rfl, rfl, rfl⟩

end Trip

/-- The loop makes 8 trips. -/
theorem trips_eq : k2_t1_loop.trips = 8 := by decide

/-- WHAT THE BODY LEAVES in the output block: the accumulated rows over the normalizers, after the 8 tiles, from the
    state (−∞, 0, 0) its first three stores leave. -/
theorem out_eq (c : Dev nD) (i : grid2.Coords)
    (arg2 : Memref sig .tc .vmem S1x512x512 .f32) (harg2 : arg2.IsWhole)
    (arg3 : Memref sig .tc .vmem S1x4096x512 .f32) (harg3 : arg3.IsWhole)
    (arg4 : Memref sig .tc .vmem S1x4096x512 .bf16) (harg4 : arg4.IsWhole)
    (arg5 : Memref sig .tc .vmem S1x512x512 .f32) (harg5 : arg5.IsWhole)
    (arg6 : Memref sig .tc .vmem S1x512x1 .f32) (harg6 : arg6.IsWhole)
    (arg7 : Memref sig .tc .vmem S1x512x1 .f32) (harg7 : arg7.IsWhole)
    (arg8 : Memref sig .tc .vmem S1x512x512 .f32) (harg8 : arg8.IsWhole)
    (x0 : Vec F S1x512x512 .f32) (x1 : Vec F S1x4096x512 .f32) (x2 : Vec F S1x4096x512 .bf16) :
    out2_A_3 (F := F) c i arg2 harg2 arg3 harg3 arg4 harg4 arg5 harg5 arg6 harg6 arg7 harg7 arg8 harg8 x0 x1 x2
      = k2_pay7 (iter x0 x1 x2 ⟨k2_pay1, k2_pay2, k2_pay3⟩ 8).A (iter x0 x1 x2 ⟨k2_pay1, k2_pay2, k2_pay3⟩ 8).L := by
  unfold out2_A_3
  rw [View.read_writes_eq_canon _ _ _ (cover2_A_3 c i arg2 harg2 arg3 harg3 arg4 harg4 arg5 harg5 arg6 harg6 arg7 harg7 arg8 harg8 x0 x1 x2)]
  unfold kernelRun2_A
  dsimp only
  rw [View.canon_unit_zero zero3]
  unfold kernelRun2_A.sl.v15 kernelRun2_A.sl.v16
  simp only [View.readAt_eq_ld]
  rw [View.ld_unit_zero (S := S1x512x512) zero3, View.ld_unit_zero (S := S1x512x1) zero3,
    View.ld_unit_zero (S := S1x512x512) zero3, harg2.read_unread]
  have e8 : Scf.trips (0#32 : BitVec 32) (Scalar.addi 0#32 8#32) 1#32 = 8 := by decide
  rw [e8, View.writes_append, View.writes_append]
  have h := pb_read (F := F) Variants.none c none i arg2 harg2 arg3 harg3 arg4 harg4 arg5 harg5 arg6 harg6 arg7 harg7 arg8 harg8
    x0 (harg3.unread x1) (harg4.unread x2)
    (arg6.view.writes (Elt F) arg6.view.junk kernelRun2_A.sl.HS0_1)
    (arg7.view.writes (Elt F) arg7.view.junk kernelRun2_A.sl.HS1_1)
    (arg8.view.writes (Elt F) arg8.view.junk kernelRun2_A.sl.HS2_1) 8 (le_of_eq trips_eq.symm)
  have h6 : arg6.view.read (Elt F) (arg6.view.writes (Elt F) arg6.view.junk kernelRun2_A.sl.HS0_1) = k2_pay1 := by
    unfold kernelRun2_A.sl.HS0_1; exact read_store_whole _ _ zero3 _ _ _
  have h7 : arg7.view.read (Elt F) (arg7.view.writes (Elt F) arg7.view.junk kernelRun2_A.sl.HS1_1) = k2_pay2 := by
    unfold kernelRun2_A.sl.HS1_1; exact read_store_whole _ _ zero3 _ _ _
  have h8 : arg8.view.read (Elt F) (arg8.view.writes (Elt F) arg8.view.junk kernelRun2_A.sl.HS2_1) = k2_pay3 := by
    unfold kernelRun2_A.sl.HS2_1; exact read_store_whole _ _ zero3 _ _ _
  rw [harg3.read_unread, harg4.read_unread, h6, h7, h8] at h
  rw [h.2.2, h.2.1]

end Cert.Attn.R2

end
-- ==== Proof.Online.lean ====
/-
  The running (online) softmax of one query row, tile by tile, on the extended reals.

  A row's keys are visited in tiles of n. After t tiles the state is the running maximum `runM`, the normalizer
  `runL` and, for one output feature, the accumulated weighted value `runA`; a new tile raises the maximum, rescales
  the old normalizer and accumulator by exp(old maximum − new maximum) and adds the tile's own terms, each
  weight exp(score − new maximum). The state starts at (−∞, 0, 0); exp(−∞) = 0 makes the first rescaling vanish.
-/
import Idealize.ShloMosaic.PureOps.Ideal

noncomputable section

namespace Cert.Attn

open Idealize.ShloMosaic

/-- The maximum of a tile's scores, folded from −∞. -/
def tileMax {n : ℕ} (s : Fin n → EReal) : EReal := (Finset.univ : Finset (Fin n)).fold max ⊥ s

/-- The running maximum after t tiles. -/
def runM {n : ℕ} (s : ℕ → Fin n → EReal) : ℕ → EReal
  | 0 => ⊥
  | t + 1 => max (runM s t) (tileMax (s t))

/-- The running normalizer after t tiles. -/
def runL {n : ℕ} (s : ℕ → Fin n → EReal) : ℕ → EReal
  | 0 => 0
  | t + 1 => Ideal.exp (runM s t - runM s (t + 1)) * runL s t + ∑ j : Fin n, Ideal.exp (s t j - runM s (t + 1))

/-- The running weighted sum of one value feature after t tiles. -/
def runA {n : ℕ} (s v : ℕ → Fin n → EReal) : ℕ → EReal
  | 0 => 0
  | t + 1 => Ideal.exp (runM s t - runM s (t + 1)) * runA s v t
              + ∑ j : Fin n, Ideal.exp (s t j - runM s (t + 1)) * v t j

end Cert.Attn

end
-- ==== Proof.LibSoftmaxShift.lean ====
/-
  The real-number laws that join the two programs, and the lemmas that carry them to the extended reals.

  Both programs compute, for a row i, weights proportional to exp (s i j) over the columns j ≠ i, normalised by their
  sum.  One shifts the exponent by the constant 1, the other by the row's maximum; since
  exp (s - μ) = exp (μ' - μ) · exp (s - μ'), a change of shift multiplies every weight of the row, and so their sum, by
  one positive factor, which cancels in the quotient (`softmax_shift`).  The similarities themselves are written once
  as a dot product scaled afterwards by the two inverse norms and once as the dot product of the two scaled rows
  (`scaled_dot`).  These are laws of the reals: on the extended reals they hold where every entry is finite, which
  is where they are used, through the coercion lemmas below.
-/
import Mathlib
import Idealize.ShloMosaic.PureOps.Ideal

noncomputable section

open scoped BigOperators

namespace Cert.Attn

open Idealize.ShloMosaic

/-- A dot product scaled by 1/u and 1/v is the dot product of the rows divided by u and by v. -/
theorem scaled_dot {ι : Type*} [Fintype ι] (a b : ι → ℝ) (u v : ℝ) :
    (∑ d, a d * b d) * (1 / u) * (1 / v) = ∑ d, (a d / u) * (b d / v) := by
  rw [Finset.sum_mul, Finset.sum_mul]
  refine Finset.sum_congr rfl fun d _ => ?_
  ring

/-- The weight of column j in row i under the shift μ: zero on the diagonal, exp (σ j - μ) off it. -/
def mexp {ι : Type*} [DecidableEq ι] (σ : ι → ℝ) (i : ι) (μ : ℝ) (j : ι) : ℝ :=
  if i = j then 0 else Real.exp (σ j - μ)

theorem mexp_nonneg {ι : Type*} [DecidableEq ι] (σ : ι → ℝ) (i : ι) (μ : ℝ) (j : ι) : 0 ≤ mexp σ i μ j := by
  unfold mexp
  split
  · exact le_rfl
  · exact (Real.exp_pos _).le

/-- Changing the shift multiplies every weight of the row by one positive factor. -/
theorem mexp_shift {ι : Type*} [DecidableEq ι] (σ : ι → ℝ) (i : ι) (μ μ' : ℝ) (j : ι) :
    mexp σ i μ j = Real.exp (μ' - μ) * mexp σ i μ' j := by
  unfold mexp
  split
  · rw [mul_zero]
  · rw [← Real.exp_add]
    congr 1
    ring

/-- A row with a column off the diagonal has a positive sum of weights. -/
theorem sum_mexp_pos {ι : Type*} [Fintype ι] [DecidableEq ι] (σ : ι → ℝ) (i : ι) (μ : ℝ) (k : ι) (hk : i ≠ k) :
    0 < ∑ j, mexp σ i μ j := by
  refine lt_of_lt_of_le ?_ (Finset.single_le_sum (fun j _ => mexp_nonneg σ i μ j) (Finset.mem_univ k))
  unfold mexp
  rw [if_neg hk]
  exact Real.exp_pos _

/-- The normalised weights do not depend on the shift. -/
theorem softmax_shift {ι : Type*} [Fintype ι] [DecidableEq ι] (σ : ι → ℝ) (i : ι) (μ μ' : ℝ) (j : ι) :
    mexp σ i μ j / ∑ k, mexp σ i μ k = mexp σ i μ' j / ∑ k, mexp σ i μ' k := by
  have hs : ∑ k, mexp σ i μ k = Real.exp (μ' - μ) * ∑ k, mexp σ i μ' k := by
    rw [Finset.mul_sum]
    exact Finset.sum_congr rfl fun k _ => mexp_shift σ i μ μ' k
  rw [hs, mexp_shift σ i μ μ' j]
  exact mul_div_mul_left _ _ (Real.exp_pos _).ne'

/-! ## From the reals to the extended reals -/

/-- The coercion to the extended reals commutes with a finite sum. -/
theorem coe_sum {ι : Type*} (s : Finset ι) (f : ι → ℝ) :
    ((∑ k ∈ s, f k : ℝ) : EReal) = ∑ k ∈ s, (f k : EReal) := by
  classical
  refine Finset.induction_on s (by simp) fun a s h ih => ?_
  rw [Finset.sum_insert h, Finset.sum_insert h, EReal.coe_add, ih]

/-- The quotient of two reals, the divisor not zero, read on the extended reals. -/
theorem div_coe_coe (a : ℝ) {b : ℝ} (hb : b ≠ 0) : Ideal.div (a : EReal) (b : EReal) = ((a / b : ℝ) : EReal) := by
  rw [Ideal.div_coe hb, ← EReal.coe_mul, mul_one_div]

end Cert.Attn

end
-- ==== Proof.Softmax.lean ====
/-
  Softmax over the reals against its two computed forms on the extended reals: the max-shifted softmax, and the
  running (online) softmax of `Online.lean`. Subtracting a real number M from every score multiplies numerator and
  denominator by exp(−M), so each form equals the unshifted quotient Σ exp(s)·v / Σ exp(s).

  The coercion of a finite real sum (`coe_sum`) and the quotient of two reals on the extended reals (`div_coe_coe`)
  come from the shift-invariance library imported below.
-/
import proofs.«124495_j22789096472738_2_alg».proof.Proof.Online
import proofs.«124495_j22789096472738_2_alg».proof.Proof.LibSoftmaxShift
import Mathlib

noncomputable section

namespace Cert.Attn

open Idealize.ShloMosaic

/-! ## The laws over the reals -/

/-- The normalizer of the first T tiles, every score shifted by M. -/
def denR {n : ℕ} (sr : ℕ → Fin n → ℝ) (M : ℝ) (T : ℕ) : ℝ :=
  ∑ t ∈ Finset.range T, ∑ j : Fin n, Real.exp (sr t j - M)

/-- The weighted value sum of the first T tiles, every score shifted by M. -/
def numR {n : ℕ} (sr vr : ℕ → Fin n → ℝ) (M : ℝ) (T : ℕ) : ℝ :=
  ∑ t ∈ Finset.range T, ∑ j : Fin n, Real.exp (sr t j - M) * vr t j

/-- One weight under a new shift is the old weight times exp (old shift − new shift). -/
theorem exp_shift (x M M' : ℝ) : Real.exp (x - M') = Real.exp (M - M') * Real.exp (x - M) := by
  rw [← Real.exp_add]
  congr 1
  ring

/-- Moving the shift from M to M' multiplies the normalizer by exp (M − M'). -/
theorem denR_shift {n : ℕ} (sr : ℕ → Fin n → ℝ) (M M' : ℝ) (T : ℕ) :
    denR sr M' T = Real.exp (M - M') * denR sr M T := by
  unfold denR
  rw [Finset.mul_sum]
  refine Finset.sum_congr rfl fun t _ => ?_
  rw [Finset.mul_sum]
  exact Finset.sum_congr rfl fun j _ => exp_shift _ _ _

/-- Moving the shift from M to M' multiplies the weighted value sum by exp (M − M'). -/
theorem numR_shift {n : ℕ} (sr vr : ℕ → Fin n → ℝ) (M M' : ℝ) (T : ℕ) :
    numR sr vr M' T = Real.exp (M - M') * numR sr vr M T := by
  unfold numR
  rw [Finset.mul_sum]
  refine Finset.sum_congr rfl fun t _ => ?_
  rw [Finset.mul_sum]
  refine Finset.sum_congr rfl fun j _ => ?_
  rw [exp_shift (sr t j) M M', mul_assoc]

theorem denR_zero {n : ℕ} (sr : ℕ → Fin n → ℝ) (M : ℝ) : denR sr M 0 = 0 := by
  unfold denR
  rw [Finset.range_zero, Finset.sum_empty]

theorem numR_zero {n : ℕ} (sr vr : ℕ → Fin n → ℝ) (M : ℝ) : numR sr vr M 0 = 0 := by
  unfold numR
  rw [Finset.range_zero, Finset.sum_empty]

theorem denR_succ {n : ℕ} (sr : ℕ → Fin n → ℝ) (M : ℝ) (T : ℕ) :
    denR sr M (T + 1) = denR sr M T + ∑ j : Fin n, Real.exp (sr T j - M) :=
  Finset.sum_range_succ _ _

theorem numR_succ {n : ℕ} (sr vr : ℕ → Fin n → ℝ) (M : ℝ) (T : ℕ) :
    numR sr vr M (T + 1) = numR sr vr M T + ∑ j : Fin n, Real.exp (sr T j - M) * vr T j :=
  Finset.sum_range_succ _ _

/-- A normalizer over at least one non-empty tile is positive: it is a sum of exponentials. -/
theorem denR_pos {n : ℕ} (hn : 0 < n) (sr : ℕ → Fin n → ℝ) (M : ℝ) (T : ℕ) (hT : 0 < T) : 0 < denR sr M T := by
  haveI : Nonempty (Fin n) := ⟨⟨0, hn⟩⟩
  exact Finset.sum_pos (fun t _ => Finset.sum_pos (fun j _ => Real.exp_pos _) Finset.univ_nonempty)
    (Finset.nonempty_range_iff.mpr hT.ne')

/-- The quotient does not depend on the shift: exp (−M) cancels between numerator and denominator. -/
theorem quot_shift {n : ℕ} (sr vr : ℕ → Fin n → ℝ) (M : ℝ) (T : ℕ) :
    numR sr vr M T / denR sr M T
      = (∑ t ∈ Finset.range T, ∑ j : Fin n, Real.exp (sr t j) * vr t j)
          / (∑ t ∈ Finset.range T, ∑ j : Fin n, Real.exp (sr t j)) := by
  rw [numR_shift sr vr 0 M, denR_shift sr 0 M, mul_div_mul_left _ _ (Real.exp_pos _).ne']
  simp only [numR, denR, sub_zero]

/-- The shifted softmax over the reals, each weight divided by the normalizer first. -/
theorem shifted_softmax_real {N : ℕ} (hN : 0 < N) (s v : Fin N → ℝ) (M : ℝ) :
    ∑ k : Fin N, Real.exp (s k - M) / (∑ k' : Fin N, Real.exp (s k' - M)) * v k
      = (∑ k : Fin N, Real.exp (s k) * v k) / (∑ k : Fin N, Real.exp (s k)) := by
  have hD : ∑ k' : Fin N, Real.exp (s k' - M) = Real.exp (0 - M) * ∑ k' : Fin N, Real.exp (s k') := by
    rw [Finset.mul_sum]
    refine Finset.sum_congr rfl fun k _ => ?_
    rw [exp_shift (s k) 0 M, sub_zero]
  rw [hD, Finset.sum_div]
  refine Finset.sum_congr rfl fun k _ => ?_
  rw [exp_shift (s k) 0 M, sub_zero, mul_div_mul_left _ _ (Real.exp_pos _).ne']
  ring

/-! ## Crossing to the extended reals -/

theorem coe_max_coe (a b : ℝ) : max (a : EReal) (b : EReal) = ((max a b : ℝ) : EReal) :=
  (EReal.coe_strictMono.monotone.map_max).symm

theorem exp_sub_coe (a b : ℝ) : Ideal.exp ((a : EReal) - (b : EReal)) = ((Real.exp (a - b) : ℝ) : EReal) := by
  rw [← EReal.coe_sub, Ideal.exp_coe]

theorem sum_exp_sub_coe {n : ℕ} (s : Fin n → ℝ) (M : ℝ) :
    ∑ j : Fin n, Ideal.exp ((s j : EReal) - (M : EReal)) = ((∑ j : Fin n, Real.exp (s j - M) : ℝ) : EReal) := by
  rw [coe_sum]
  exact Finset.sum_congr rfl fun j _ => exp_sub_coe _ _

theorem sum_exp_sub_mul_coe {n : ℕ} (s v : Fin n → ℝ) (M : ℝ) :
    ∑ j : Fin n, Ideal.exp ((s j : EReal) - (M : EReal)) * (v j : EReal)
      = ((∑ j : Fin n, Real.exp (s j - M) * v j : ℝ) : EReal) := by
  rw [coe_sum]
  refine Finset.sum_congr rfl fun j _ => ?_
  rw [exp_sub_coe, EReal.coe_mul]

/-- The maximum of a non-empty finite family of real scores, folded from −∞, is a real number. -/
theorem fold_max_coe {ι : Type*} [DecidableEq ι] (S : Finset ι) (s : ι → ℝ) (hS : S.Nonempty) :
    ∃ r : ℝ, S.fold max ⊥ (fun j => (s j : EReal)) = (r : EReal) := by
  induction S using Finset.induction_on with
  | empty => exact absurd hS Finset.not_nonempty_empty
  | insert a S ha ih =>
    rw [Finset.fold_insert ha]
    by_cases hS' : S.Nonempty
    · obtain ⟨r, hr⟩ := ih hS'
      rw [hr]
      exact ⟨max (s a) r, coe_max_coe _ _⟩
    · rw [Finset.not_nonempty_iff_eq_empty.mp hS', Finset.fold_empty]
      exact ⟨s a, max_bot_right _⟩

/-- The maximum of a non-empty tile of real scores, folded from −∞, is a real number. -/
theorem tileMax_coe {n : ℕ} (hn : 0 < n) (s : Fin n → ℝ) : ∃ r : ℝ, tileMax (fun j => (s j : EReal)) = (r : EReal) := by
  haveI : Nonempty (Fin n) := ⟨⟨0, hn⟩⟩
  exact fold_max_coe Finset.univ s Finset.univ_nonempty

/-! ## The running softmax -/

theorem runM_zero {n : ℕ} (s : ℕ → Fin n → EReal) : runM s 0 = ⊥ := rfl
theorem runM_succ {n : ℕ} (s : ℕ → Fin n → EReal) (t : ℕ) : runM s (t + 1) = max (runM s t) (tileMax (s t)) := rfl
theorem runL_zero {n : ℕ} (s : ℕ → Fin n → EReal) : runL s 0 = 0 := rfl
theorem runL_succ {n : ℕ} (s : ℕ → Fin n → EReal) (t : ℕ) :
    runL s (t + 1)
      = Ideal.exp (runM s t - runM s (t + 1)) * runL s t + ∑ j : Fin n, Ideal.exp (s t j - runM s (t + 1)) := rfl
theorem runA_zero {n : ℕ} (s v : ℕ → Fin n → EReal) : runA s v 0 = 0 := rfl
theorem runA_succ {n : ℕ} (s v : ℕ → Fin n → EReal) (t : ℕ) :
    runA s v (t + 1)
      = Ideal.exp (runM s t - runM s (t + 1)) * runA s v t
          + ∑ j : Fin n, Ideal.exp (s t j - runM s (t + 1)) * v t j := rfl

/-- After t + 1 non-empty tiles of real scores the running maximum is a real number M, and the running normalizer
    and weighted value sum are the sums over all tiles seen so far with every score shifted by M. The first tile
    meets the state (−∞, 0, 0), whose rescaled terms vanish; a later tile moves every old term from the old maximum
    to the new one by the factor exp (old − new). -/
theorem run_inv {n : ℕ} (hn : 0 < n) (s v : ℕ → Fin n → EReal) (sr vr : ℕ → Fin n → ℝ)
    (hs : ∀ t j, s t j = (sr t j : EReal)) (hv : ∀ t j, v t j = (vr t j : EReal)) (t : ℕ) :
    ∃ M : ℝ, runM s (t + 1) = (M : EReal) ∧ runL s (t + 1) = ((denR sr M (t + 1) : ℝ) : EReal)
      ∧ runA s v (t + 1) = ((numR sr vr M (t + 1) : ℝ) : EReal) := by
  have htile : ∀ t, ∃ m : ℝ, tileMax (s t) = (m : EReal) := fun t => by
    rw [show s t = fun j => (sr t j : EReal) from funext (hs t)]
    exact tileMax_coe hn (sr t)
  have hsumL : ∀ (t : ℕ) (M : ℝ),
      ∑ j : Fin n, Ideal.exp (s t j - (M : EReal)) = ((∑ j : Fin n, Real.exp (sr t j - M) : ℝ) : EReal) := fun t M => by
    simp only [hs]
    exact sum_exp_sub_coe _ _
  have hsumA : ∀ (t : ℕ) (M : ℝ),
      ∑ j : Fin n, Ideal.exp (s t j - (M : EReal)) * v t j
        = ((∑ j : Fin n, Real.exp (sr t j - M) * vr t j : ℝ) : EReal) := fun t M => by
    simp only [hs, hv]
    exact sum_exp_sub_mul_coe _ _ _
  induction t with
  | zero =>
    obtain ⟨m, hm⟩ := htile 0
    have hM : runM s (0 + 1) = (m : EReal) := by rw [runM_succ, runM_zero, hm, max_bot_left]
    refine ⟨m, hM, ?_, ?_⟩
    · rw [runL_succ, hM, runL_zero, mul_zero, zero_add, hsumL, denR_succ, denR_zero, zero_add]
    · rw [runA_succ, hM, runA_zero, mul_zero, zero_add, hsumA, numR_succ, numR_zero, zero_add]
  | succ t ih =>
    obtain ⟨M, hM, hL, hA⟩ := ih
    obtain ⟨m, hm⟩ := htile (t + 1)
    have hM' : runM s (t + 1 + 1) = ((max M m : ℝ) : EReal) := by rw [runM_succ, hM, hm, coe_max_coe]
    refine ⟨max M m, hM', ?_, ?_⟩
    · rw [runL_succ, hM', hM, hL, hsumL, exp_sub_coe, ← EReal.coe_mul, ← EReal.coe_add, denR_succ sr (max M m) (t + 1),
        denR_shift sr M (max M m)]
    · rw [runA_succ, hM', hM, hA, hsumA, exp_sub_coe, ← EReal.coe_mul, ← EReal.coe_add, numR_succ sr vr (max M m) (t + 1),
        numR_shift sr vr M (max M m)]

/-- The running softmax over T ≥ 1 non-empty tiles of real scores and values ends at the unshifted softmax quotient. -/
theorem online_softmax {n : ℕ} (hn : 0 < n) (sr vr : ℕ → Fin n → ℝ) (T : ℕ) (hT : 0 < T) :
    Ideal.div (runA (fun t j => (sr t j : EReal)) (fun t j => (vr t j : EReal)) T) (runL (fun t j => (sr t j : EReal)) T)
      = (((∑ t ∈ Finset.range T, ∑ j : Fin n, Real.exp (sr t j) * vr t j)
          / (∑ t ∈ Finset.range T, ∑ j : Fin n, Real.exp (sr t j)) : ℝ) : EReal) := by
  obtain ⟨t, rfl⟩ : ∃ t, T = t + 1 := ⟨T - 1, by omega⟩
  obtain ⟨M, _, hL, hA⟩ := run_inv hn (fun t j => (sr t j : EReal)) (fun t j => (vr t j : EReal)) sr vr
    (fun _ _ => rfl) (fun _ _ => rfl) t
  rw [hL, hA, div_coe_coe _ (denR_pos hn sr M (t + 1) hT).ne', quot_shift]

/-- The softmax shifted by any real M, each weight divided by the normalizer before it meets its value, summed:
    the unshifted softmax quotient. -/
theorem shifted_softmax {N : ℕ} (hN : 0 < N) (s v : Fin N → ℝ) (M : ℝ) :
    ∑ k : Fin N, Ideal.div (Ideal.exp ((s k : EReal) - (M : EReal)))
        (∑ k' : Fin N, Ideal.exp ((s k' : EReal) - (M : EReal))) * (v k : EReal)
      = (((∑ k : Fin N, Real.exp (s k) * v k) / (∑ k : Fin N, Real.exp (s k)) : ℝ) : EReal) := by
  haveI : Nonempty (Fin N) := ⟨⟨0, hN⟩⟩
  have hpos : (0 : ℝ) < ∑ k' : Fin N, Real.exp (s k' - M) :=
    Finset.sum_pos (fun k _ => Real.exp_pos _) Finset.univ_nonempty
  rw [← shifted_softmax_real hN s v M, coe_sum, sum_exp_sub_coe]
  refine Finset.sum_congr rfl fun k _ => ?_
  rw [exp_sub_coe, div_coe_coe _ hpos.ne', EReal.coe_mul]

end Cert.Attn

end
-- ==== Proof.LibBatchOps.lean ====
/-
  Rank-3 arrays [n0, n1, n2] of extended reals read at an index (b, q, l): reductions over ONE of the two inner
  axes, and a reduced array kept as a unit axis and broadcast back.

  * A maximum taken from −∞ over the middle axis is, at (b, l), the fold of `max` from −∞ over the entries (b, q, l).
  * A sum over the middle axis is, at (b, l), the sum over `q` of the entries (b, q, l); a sum over the last axis is,
    at (b, q), the sum over `l`.
  * An array [n0, n2] viewed as [n0, 1, n2] and broadcast to [n0, n1, n2] reads, at (b, q, l), the entry (b, l);
    an array [n0, n1] viewed as [n0, n1, 1] and broadcast to [n0, n1, n2] reads, at (b, q, l), the entry (b, q).
-/
import Idealize.ShloMosaic.Lib.ValueIdx
import Idealize.ShloMosaic.Lib.Pipeline.Value
import Idealize.ShloMosaic.PureOps.Ideal.Laws

noncomputable section

namespace Cert.BatchOps

open Idealize.ShloMosaic Idealize.ShloMosaic.ValueIdx

/-- The maximum over the middle axis, from −∞: at (b, l) the fold of `max` over the entries (b, q, l). -/
theorem max_axis1_apply {n0 n1 n2 : ℕ} (src : FVec Ideal ⟨3, ![n0, n1, n2]⟩ .f32)
    (h : (⟨3, ![n0, n1, n2]⟩ : Shape).Reduces [1] ⟨2, ![n0, n2]⟩) (hφ : FKind.Formats .f32)
    (hacc : (0xFF800000#32 : BitVec 32) = 0xFF800000#32) (b : Fin n0) (l : Fin n2) :
    multiReduction .maximumf [1] ⟨2, ![n0, n2]⟩ src 0xFF800000#32 h hφ hacc (ix2 b l)
      = (Finset.univ : Finset (Fin n1)).fold max (Ideal.ofBits .f32 0xFF800000#32) (fun q => src (ix3 b q l)) :=
  (Ideal.multiReduction_maximumf_single src 0xFF800000#32 h hφ hacc (ix2 b l)).trans
    (Finset.fold_congr fun q _ => congrArg src (funext fun ax => Fin.ext (by
      match ax with
      | ⟨0, _⟩ => rfl
      | ⟨1, _⟩ => rfl
      | ⟨2, _⟩ => rfl)))

/-- The sum over the middle axis: at (b, l) the sum over `q` of the entries (b, q, l). -/
theorem sum_axis1_apply {n0 n1 n2 : ℕ} (src : FVec Ideal ⟨3, ![n0, n1, n2]⟩ .f32)
    (h : (⟨3, ![n0, n1, n2]⟩ : Shape).Reduces [1] ⟨2, ![n0, n2]⟩) (hφ : FKind.Formats .f32)
    (hacc : (0x00000000#32 : BitVec 32) = 0x00000000#32) (b : Fin n0) (l : Fin n2) :
    multiReduction .add [1] ⟨2, ![n0, n2]⟩ src 0x00000000#32 h hφ hacc (ix2 b l)
      = ∑ q : Fin n1, src (ix3 b q l) :=
  (Ideal.multiReduction_add_single src 0x00000000#32 h hφ hacc (ix2 b l)).trans
    (Finset.sum_congr rfl fun q _ => congrArg src (funext fun ax => Fin.ext (by
      match ax with
      | ⟨0, _⟩ => rfl
      | ⟨1, _⟩ => rfl
      | ⟨2, _⟩ => rfl)))

/-- The sum over the last axis: at (b, q) the sum over `l` of the entries (b, q, l). -/
theorem sum_axis2_apply {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = 0x00000000#32) (b : Fin n0) (q : Fin n1) :
    multiReduction .add [2] ⟨2, ![n0, n1]⟩ src 0x00000000#32 h hφ hacc (ix2 b q)
      = ∑ l : Fin n2, src (ix3 b q l) :=
  (Ideal.multiReduction_add_single src 0x00000000#32 h hφ hacc (ix2 b q)).trans
    (Finset.sum_congr rfl fun l _ => congrArg src (funext fun ax => Fin.ext (by
      match ax with
      | ⟨0, _⟩ => rfl
      | ⟨1, _⟩ => rfl
      | ⟨2, _⟩ => rfl)))

variable {α : Type}

/-- [n0, n2] kept as [n0, 1, n2] and broadcast along the middle axis: at (b, q, l) the entry (b, l). -/
theorem keep_axis1_apply {n0 n1 n2 : ℕ} (v : (⟨2, ![n0, n2]⟩ : Shape).Idx → α)
    (h1 : (⟨2, ![n0, n2]⟩ : Shape).ShapeCasts ⟨3, ![n0, 1, n2]⟩)
    (h2 : (⟨3, ![n0, 1, n2]⟩ : Shape).Broadcasts ⟨3, ![n0, n1, n2]⟩) (b : Fin n0) (q : Fin n1) (l : Fin n2) :
    broadcastTo ⟨3, ![n0, n1, n2]⟩ (shapeCast ⟨3, ![n0, 1, n2]⟩ v h1) h2 (ix3 b q l) = v (ix2 b l) := by
  refine (broadcastTo_apply _ h2 (ix3 b q l) (ix3 b (0 : Fin 1) l) fun ax => ?_).trans ?_
  · match ax with
    | ⟨0, _⟩ =>
      show b.val = if n0 = 1 then 0 else b.val
      split
      · have := b.isLt; omega
      · rfl
    | ⟨1, _⟩ => rfl
    | ⟨2, _⟩ =>
      show l.val = if n2 = 1 then 0 else l.val
      split
      · have := l.isLt; omega
      · rfl
  · refine shapeCast_apply v h1 (ix3 b (0 : Fin 1) l) (ix2 b l) ?_
    rw [Shape.rowMajor_val_two, Shape.rowMajor_val_three]
    show b.val * n2 + l.val = (b.val * 1 + 0) * n2 + l.val
    rw [Nat.mul_one, Nat.add_zero]

/-- [n0, n1] kept as [n0, n1, 1] and broadcast along the last axis: at (b, q, l) the entry (b, q). -/
theorem keep_axis2_apply {n0 n1 n2 : ℕ} (v : (⟨2, ![n0, n1]⟩ : Shape).Idx → α)
    (h1 : (⟨2, ![n0, n1]⟩ : Shape).ShapeCasts ⟨3, ![n0, n1, 1]⟩)
    (h2 : (⟨3, ![n0, n1, 1]⟩ : Shape).Broadcasts ⟨3, ![n0, n1, n2]⟩) (b : Fin n0) (q : Fin n1) (l : Fin n2) :
    broadcastTo ⟨3, ![n0, n1, n2]⟩ (shapeCast ⟨3, ![n0, n1, 1]⟩ v h1) h2 (ix3 b q l) = v (ix2 b q) := by
  refine (broadcastTo_apply _ h2 (ix3 b q l) (ix3 b q (0 : Fin 1)) fun ax => ?_).trans ?_
  · match ax with
    | ⟨0, _⟩ =>
      show b.val = if n0 = 1 then 0 else b.val
      split
      · have := b.isLt; omega
      · rfl
    | ⟨1, _⟩ =>
      show q.val = if n1 = 1 then 0 else q.val
      split
      · have := q.isLt; omega
      · rfl
    | ⟨2, _⟩ => rfl
  · refine shapeCast_apply v h1 (ix3 b q (0 : Fin 1)) (ix2 b q) ?_
    rw [Shape.rowMajor_val_two, Shape.rowMajor_val_three]
    show b.val * n1 + q.val = (b.val * n1 + q.val) * 1 + 0
    omega

end Cert.BatchOps

end
-- ==== Proof.LibUnitAxes.lean ====
/-
  A unit axis of a two- or three-axis array, read at an entry.

  A cast that adds a unit axis does not move any entry: an [a, b] array seen as [a, b, 1] reads at (p, q, 0) its entry
  (p, q); seen as [a, 1, b] it reads at (p, 0, q) its entry (p, q); an [a] array seen as [a, 1] reads at (p, 0) its
  entry p.  A broadcast along a unit axis repeats the one entry there: an [a, b, 1] array repeated to [a, b, c] reads at
  (p, q, r) its entry (p, q, 0); an [a, 1, c] array repeated to [a, b, c] reads at (p, q, r) its entry (p, 0, r); an
  [a, 1] array repeated to [a, b] reads at (p, q) its entry (p, 0).  And a vector of c entries seen as [1, 1, c] and
  repeated to [a, b, c] reads at (p, q, r) its entry r.
-/
import Idealize.ShloMosaic.Lib.ValueIdx
import Idealize.ShloMosaic.Lib.Pipeline.Value

noncomputable section

namespace Cert.UnitAxes

open Idealize.ShloMosaic Idealize.ShloMosaic.ValueIdx

variable {α : Type}

/-- [a, b] seen as [a, b, 1]: at (p, q, 0) the entry (p, q). -/
theorem cast_last_apply {a b : ℕ} (v : (⟨2, ![a, b]⟩ : Shape).Idx → α)
    (h : (⟨2, ![a, b]⟩ : Shape).ShapeCasts ⟨3, ![a, b, 1]⟩) (p : Fin a) (q : Fin b) :
    shapeCast ⟨3, ![a, b, 1]⟩ v h (ix3 p q (0 : Fin 1)) = v (ix2 p q) := by
  refine shapeCast_apply v h (ix3 p q (0 : Fin 1)) (ix2 p q) ?_
  rw [Shape.rowMajor_val_two, Shape.rowMajor_val_three]
  show p.val * b + q.val = (p.val * b + q.val) * 1 + 0
  omega

/-- [a, c] seen as [a, 1, c]: at (p, 0, r) the entry (p, r). -/
theorem cast_mid_apply {a c : ℕ} (v : (⟨2, ![a, c]⟩ : Shape).Idx → α)
    (h : (⟨2, ![a, c]⟩ : Shape).ShapeCasts ⟨3, ![a, 1, c]⟩) (p : Fin a) (r : Fin c) :
    shapeCast ⟨3, ![a, 1, c]⟩ v h (ix3 p (0 : Fin 1) r) = v (ix2 p r) := by
  refine shapeCast_apply v h (ix3 p (0 : Fin 1) r) (ix2 p r) ?_
  rw [Shape.rowMajor_val_two, Shape.rowMajor_val_three]
  show p.val * c + r.val = (p.val * 1 + 0) * c + r.val
  rw [Nat.mul_one, Nat.add_zero]

/-- [a] seen as [a, 1]: at (p, 0) the entry p. -/
theorem cast_col_apply {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_one, Shape.rowMajor_val_two]
    show p.val = p.val * 1 + 0
    omega)

/-- [a, b, 1] repeated to [a, b, c]: at (p, q, r) the entry (p, q, 0). -/
theorem repeat_last_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, c] repeated to [a, b, c]: at (p, q, r) the entry (p, 0, r). -/
theorem repeat_mid_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [a, 1] repeated to [a, b]: at (p, q) the entry (p, 0). -/
theorem repeat_col_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of c entries seen as [1, 1, c] and repeated to [a, b, c]: at (p, q, r) the entry r. -/
theorem vector_repeated_apply {a b c : ℕ} (v : (⟨1, ![c]⟩ : Shape).Idx → α)
    (h1 : (⟨1, ![c]⟩ : Shape).ShapeCasts ⟨3, ![1, 1, c]⟩)
    (h2 : (⟨3, ![1, 1, c]⟩ : Shape).Broadcasts ⟨3, ![a, b, c]⟩) (p : Fin a) (q : Fin b) (r : Fin c) :
    broadcastTo ⟨3, ![a, b, c]⟩ (shapeCast ⟨3, ![1, 1, c]⟩ v h1) h2 (ix3 p q r) = v (ix1 r) := by
  refine (broadcastTo_apply _ h2 (ix3 p q r) (ix3 (0 : Fin 1) (0 : Fin 1) r) fun ax => ?_).trans ?_
  · match ax with
    | ⟨0, _⟩ => rfl
    | ⟨1, _⟩ => rfl
    | ⟨2, _⟩ =>
      show r.val = if c = 1 then 0 else r.val
      split
      · have := r.isLt; omega
      · rfl
  · refine shapeCast_apply v h1 (ix3 (0 : Fin 1) (0 : Fin 1) r) (ix1 r) ?_
    rw [Shape.rowMajor_val_one, Shape.rowMajor_val_three]
    show r.val = (0 * 1 + 0) * c + r.val
    omega

end Cert.UnitAxes

end
-- ==== Proof.LibSumBlocks.lean ====
/-
  Regrouping a finite sum into consecutive blocks.

  A sum over the N = a * b indices 0, …, N - 1 is the sum, over the a blocks, of the sum over the b offsets inside a
  block: index i * b + j is offset j of block i.  Only commutativity and associativity of the addition are used, so the
  statement holds in any additive commutative monoid (the extended reals included).
-/
import Mathlib.Algebra.BigOperators.Fin
import Mathlib.Logic.Equiv.Fin.Basic

open scoped BigOperators

namespace Cert.SumBlocks

/-- Index `i * b + j` of block `i`, offset `j`, is below `a * b`. -/
theorem block_index_lt {a b : ℕ} (i : Fin a) (j : Fin b) : i.val * b + j.val < a * b := by
  have hi : i.val + 1 ≤ a := i.isLt
  have hj := j.isLt
  have h1 : (i.val + 1) * b ≤ a * b := Nat.mul_le_mul_right b hi
  rw [Nat.succ_mul] at h1
  omega

/-- A sum over `Fin N`, `N = a * b`, regrouped as `a` consecutive blocks of `b` terms. -/
theorem sum_blocks {M : Type*} [AddCommMonoid M] (a b N : ℕ) (hN : N = a * b) (f : Fin N → M) :
    ∑ n : Fin N, f n = ∑ i : Fin a, ∑ j : Fin b, f ⟨i.val * b + j.val, hN ▸ block_index_lt i j⟩ := by
  subst hN
  rw [← Fintype.sum_prod_type', ← (finProdFinEquiv (m := a) (n := b)).sum_comp]
  refine Finset.sum_congr rfl fun p _ => congrArg f (Fin.ext ?_)
  show p.2.val + b * p.1.val = p.1.val * b + p.2.val
  rw [Nat.mul_comm, Nat.add_comm]

end Cert.SumBlocks
-- ==== Proof.Region2Idx.lean ====
/-
  The attention kernel's body, entry by entry, on the extended reals.

  One visit of a key tile replaces a query row's running maximum m, normalizer l and weighted value row a by
      m' = max(m, max_j s_j),   l' = exp(m − m') · l + Σ_j exp(s_j − m'),   a'_e = exp(m − m') · a_e + Σ_j exp(s_j − m') · v_{j,e},
  where s_j = ⟨q_r, k_j⟩ is the row's score against the tile's j-th key row and v_{j,e} the tile's value entries: this
  is the running (online) softmax step.  Eight visits from (−∞, 0, 0) therefore leave the running softmax state of the
  row's 8 × 512 scores, and the stored quotient a / l is, on real inputs, the unshifted softmax quotient
  (Σ_n exp(s_n) · v_{n,e}) / (Σ_n exp(s_n)) over all 4096 key rows.
-/
import proofs.«124495_j22789096472738_2_alg».proof.Proof.Region2Vec
import proofs.«124495_j22789096472738_2_alg».proof.Proof.Softmax
import proofs.«124495_j22789096472738_2_alg».proof.Proof.Online
import proofs.«124495_j22789096472738_2_alg».proof.Proof.Spec
import proofs.«124495_j22789096472738_2_alg».proof.Proof.LibAttnOps
import proofs.«124495_j22789096472738_2_alg».proof.Proof.LibBatchOps
import proofs.«124495_j22789096472738_2_alg».proof.Proof.LibUnitAxes
import proofs.«124495_j22789096472738_2_alg».proof.Proof.LibSumBlocks
import Idealize.ShloMosaic.Lib.ValueIdx
import Idealize.ShloMosaic.PureOps.Ideal.Laws

noncomputable section

namespace Cert.Attn.R2

open Idealize.ShloMosaic Idealize.ShloMosaic.ValueIdx Cert.KernelIdeal Cert.KernelIdeal.Gen Cert.Attn

/-! ## A tile of a resident array -/

/-- Row j of tile t, as a row of the resident array (rows 512·t … 512·t + 511 for t < 8). -/
def rowOf (t : ℕ) (j : Fin 512) : Fin 4096 := ⟨(512 * t + j.val) % 4096, Nat.mod_lt _ (by decide)⟩

theorem rowOf_val (t : ℕ) (ht : t < 8) (j : Fin 512) : (rowOf t j).val = 512 * t + j.val := by
  have := j.isLt
  show (512 * t + j.val) % 4096 = 512 * t + j.val
  omega

/-- Tile k of a resident array reads its rows 512·k + j. -/
theorem tile_apply {e : EltTy} (X : Vec Ideal S1x4096x512 e) (k : Fin k2_t1_loop.trips) (j d : Fin 512) :
    tile X k (ix3 (0 : Fin 1) j d) = X (ix3 (0 : Fin 1) (rowOf k.val j) d) := by
  have hk : k.val < 8 := lt_of_lt_of_eq k.isLt trips_eq
  unfold tile
  refine congrArg X (funext fun a => Fin.ext ?_)
  match a with
  | ⟨0, _⟩ => simp [k2_off1_eq]
  | ⟨1, _⟩ => simp [k2_off1_eq, rowOf_val k.val hk j]
  | ⟨2, _⟩ => simp [k2_off1_eq]

/-! ## The scores of a tile and the row maximum -/

/-- The score of query row r against key row j of a tile. -/
def dotRow (q kt : Vec Ideal S1x512x512 .f32) (r j : Fin 512) : EReal :=
  ∑ d : Fin 512, q (ix3 (0 : Fin 1) r d) * kt (ix3 (0 : Fin 1) j d)

theorem neg_inf_bits : Ideal.ofBits .f32 0xFF800000#32 = (⊥ : EReal) := by simp [Ideal.ofBits, Ideal.ieee]

theorem pay8_apply (q kt : Vec Ideal S1x512x512 .f32) (r j : Fin 512) :
    k2_pay8 (F := Ideal) q kt (ix3 (0 : Fin 1) r j) = dotRow q kt r j := by
  unfold k2_pay8
  rw [shapeCast_self]
  exact Cert.AttnOps.rows_rows_apply (n := 1) (a := 512) (b := 512) (d := 512)
    dot_S1x512x512_S1x512x512_S1x512x512_2_2_1_1_0_0_wf (some .fp32) q kt 0 r j

/-- The new running maximum of row r: the old one against the tile's row maximum. -/
theorem pay9_apply (q kt : Vec Ideal S1x512x512 .f32) (m : Vec Ideal S1x512x1 .f32) (r : Fin 512) :
    k2_pay9 (F := Ideal) q kt m (ix3 (0 : Fin 1) r (0 : Fin 1))
      = max (m (ix3 0 r 0)) (tileMax fun j => dotRow q kt r j) := by
  unfold k2_pay9 tileMax
  rw [maximumf_apply, Cert.UnitAxes.cast_last_apply (a := 1) (b := 512), Cert.AttnOps.max_last3_apply (n0 := 1) (n1 := 512) (n2 := 512),
    neg_inf_bits]
  exact congrArg (fun f => max (m (ix3 0 r 0)) (Finset.fold max (⊥ : EReal) f (Finset.univ : Finset (Fin 512))))
    (funext fun j => pay8_apply q kt r j)

theorem nextM_apply (q kt : Vec Ideal S1x512x512 .f32) (m : Vec Ideal S1x512x1 .f32) (r : Fin 512) :
    nextM q kt m (ix3 (0 : Fin 1) r (0 : Fin 1)) = max (m (ix3 0 r 0)) (tileMax fun j => dotRow q kt r j) := by
  unfold nextM k2_pay6 k2_pay4
  rw [shapeCast_self, shapeCast_self]
  exact pay9_apply q kt m r

/-- The new running maximum, before the identity casts around it. -/
theorem pay9_eq_nextM (q kt : Vec Ideal S1x512x512 .f32) (m : Vec Ideal S1x512x1 .f32) :
    k2_pay9 (F := Ideal) q kt m = nextM q kt m := by
  unfold nextM k2_pay6 k2_pay4
  rw [shapeCast_self, shapeCast_self]

/-- The rescaling factor of row r: exp(old maximum − new maximum). -/
theorem pay10_apply (q kt : Vec Ideal S1x512x512 .f32) (m : Vec Ideal S1x512x1 .f32) (i : S1x512x1.Idx) :
    k2_pay10 (F := Ideal) q kt m i = Ideal.exp (m i - nextM q kt m i) := by
  rw [← pay9_eq_nextM]; rfl

/-- A weight of the tile: exp(score − new maximum). -/
theorem pay11_apply (q kt : Vec Ideal S1x512x512 .f32) (m : Vec Ideal S1x512x1 .f32) (r j : Fin 512) :
    k2_pay11 (F := Ideal) q kt m (ix3 (0 : Fin 1) r j)
      = Ideal.exp (dotRow q kt r j - nextM q kt m (ix3 0 r 0)) := by
  unfold k2_pay11
  show Ideal.exp (k2_pay8 (F := Ideal) q kt (ix3 (0 : Fin 1) r j)
    - broadcastTo S1x512x512 (k2_pay9 (F := Ideal) q kt m) broadcasts_S1x512x1_S1x512x512 (ix3 (0 : Fin 1) r j)) = _
  rw [pay8_apply, Cert.UnitAxes.repeat_last_apply (a := 1) (b := 512) (c := 512), pay9_eq_nextM]

/-! ## The normalizer and the weighted value rows after a tile -/

theorem nextL_apply (q kt : Vec Ideal S1x512x512 .f32) (m l : Vec Ideal S1x512x1 .f32) (r : Fin 512) :
    nextL q kt m l (ix3 (0 : Fin 1) r (0 : Fin 1))
      = Ideal.exp (m (ix3 0 r 0) - nextM q kt m (ix3 0 r 0)) * l (ix3 0 r 0)
        + ∑ j : Fin 512, Ideal.exp (dotRow q kt r j - nextM q kt m (ix3 0 r 0)) := by
  have e4 : k2_pay4 (F := Ideal) q = q := by unfold k2_pay4; rw [shapeCast_self]
  unfold nextL
  rw [e4]
  unfold k2_pay12
  rw [shapeCast_self, addf_apply, mulf_apply, pay10_apply, Cert.UnitAxes.cast_last_apply (a := 1) (b := 512),
    Cert.BatchOps.sum_axis2_apply (n0 := 1) (n1 := 512) (n2 := 512)]
  exact congrArg (_ + ·) (Finset.sum_congr rfl fun j _ => pay11_apply q kt m r j)

theorem nextA_apply (q kt : Vec Ideal S1x512x512 .f32) (vt : Vec Ideal S1x512x512 .bf16) (m : Vec Ideal S1x512x1 .f32)
    (a : Vec Ideal S1x512x512 .f32) (r e : Fin 512) :
    nextA q kt vt m a (ix3 (0 : Fin 1) r e)
      = Ideal.exp (m (ix3 0 r 0) - nextM q kt m (ix3 0 r 0)) * a (ix3 0 r e)
        + ∑ j : Fin 512, Ideal.exp (dotRow q kt r j - nextM q kt m (ix3 0 r 0)) * vt (ix3 0 j e) := by
  have e4 : k2_pay4 (F := Ideal) q = q := by unfold k2_pay4; rw [shapeCast_self]
  unfold nextA k2_pay5
  rw [e4, shapeCast_self]
  unfold k2_pay13
  rw [addf_apply, mulf_apply, Cert.UnitAxes.repeat_last_apply (a := 1) (b := 512) (c := 512), pay10_apply, shapeCast_self]
  refine congrArg (fun z : EReal => (Ideal.exp (m (ix3 0 r 0) - nextM q kt m (ix3 0 r 0)) * a (ix3 0 r e) : EReal) + z) ?_
  refine (Cert.AttnOps.rows_cols_apply (n := 1) (a := 512) (k := 512) (d := 512) (φ₁ := .bf16) (φ₂ := .bf16)
    dot_S1x512x512_S1x512x512_S1x512x512_2_1_1_2_0_0_wf none _ vt 0 r e).trans ?_
  refine Finset.sum_congr rfl fun j _ => ?_
  rw [truncf_apply, pay11_apply]

/-- The stored quotient: the weighted value row over the row's normalizer. -/
theorem pay7_apply (A : Vec Ideal S1x512x512 .f32) (L : Vec Ideal S1x512x1 .f32) (r e : Fin 512) :
    k2_pay7 (F := Ideal) A L (ix3 (0 : Fin 1) r e) = Ideal.div (A (ix3 0 r e)) (L (ix3 0 r 0)) := by
  unfold k2_pay7
  rw [divf_apply, Cert.UnitAxes.repeat_last_apply (a := 1) (b := 512) (c := 512)]

/-! ## Eight visits are the running softmax of the row -/

/-- The score of query row r against key row j of tile t of the resident keys. -/
def sc (x0 : Vec Ideal S1x512x512 .f32) (x1 : Vec Ideal S1x4096x512 .f32) (r : Fin 512) (t : ℕ) (j : Fin 512) : EReal :=
  ∑ d : Fin 512, x0 (ix3 (0 : Fin 1) r d) * x1 (ix3 (0 : Fin 1) (rowOf t j) d)

/-- Entry e of value row j of tile t of the resident values. -/
def vl (x2 : Vec Ideal S1x4096x512 .bf16) (e : Fin 512) (t : ℕ) (j : Fin 512) : EReal :=
  x2 (ix3 (0 : Fin 1) (rowOf t j) e)

theorem dotRow_tile (x0 : Vec Ideal S1x512x512 .f32) (x1 : Vec Ideal S1x4096x512 .f32) (r : Fin 512)
    (k : Fin k2_t1_loop.trips) (j : Fin 512) : dotRow x0 (tile x1 k) r j = sc x0 x1 r k.val j := by
  unfold dotRow sc
  exact Finset.sum_congr rfl fun d _ => by rw [tile_apply]

/-- The state the body's first three stores leave: (−∞, 0, 0). -/
theorem start_M (r : Fin 512) : k2_pay1 (F := Ideal) (ix3 (0 : Fin 1) r (0 : Fin 1)) = (⊥ : EReal) := by
  unfold k2_pay1
  rw [shapeCast_self, broadcast_apply]
  exact neg_inf_bits

theorem start_L (r : Fin 512) : k2_pay2 (F := Ideal) (ix3 (0 : Fin 1) r (0 : Fin 1)) = (0 : EReal) := by
  unfold k2_pay2
  rw [shapeCast_self, broadcast_apply]
  exact Ideal.ofBits_zero_f32

theorem start_A (r e : Fin 512) : k2_pay3 (F := Ideal) (ix3 (0 : Fin 1) r e) = (0 : EReal) := by
  unfold k2_pay3
  rw [shapeCast_self, broadcast_apply]
  exact Ideal.ofBits_zero_f32

/-- After k ≤ 8 tiles the scratch vectors hold, at row r (and value feature e), the running softmax state of the row. -/
theorem iter_run (x0 : Vec Ideal S1x512x512 .f32) (x1 : Vec Ideal S1x4096x512 .f32) (x2 : Vec Ideal S1x4096x512 .bf16)
    (r e : Fin 512) : ∀ k : ℕ, k ≤ 8 →
    (iter x0 x1 x2 ⟨k2_pay1 (F := Ideal), k2_pay2 (F := Ideal), k2_pay3 (F := Ideal)⟩ k).M (ix3 (0 : Fin 1) r (0 : Fin 1)) = runM (sc x0 x1 r) k
    ∧ (iter x0 x1 x2 ⟨k2_pay1 (F := Ideal), k2_pay2 (F := Ideal), k2_pay3 (F := Ideal)⟩ k).L (ix3 (0 : Fin 1) r (0 : Fin 1)) = runL (sc x0 x1 r) k
    ∧ (iter x0 x1 x2 ⟨k2_pay1 (F := Ideal), k2_pay2 (F := Ideal), k2_pay3 (F := Ideal)⟩ k).A (ix3 (0 : Fin 1) r e) = runA (sc x0 x1 r) (vl x2 e) k
  | 0, _ => ⟨start_M r, start_L r, start_A r e⟩
  | k + 1, hk => by
    have hk' : k < k2_t1_loop.trips := lt_of_lt_of_eq (Nat.lt_of_succ_le hk) trips_eq.symm
    obtain ⟨hM, hL, hA⟩ := iter_run x0 x1 x2 r e k (Nat.le_of_succ_le hk)
    have es := iter_succ x0 x1 x2 ⟨k2_pay1 (F := Ideal), k2_pay2 (F := Ideal), k2_pay3 (F := Ideal)⟩ ⟨k, hk'⟩
    dsimp only at es
    rw [es]
    dsimp only
    have hs : (fun j => dotRow x0 (tile x1 ⟨k, hk'⟩) r j) = sc x0 x1 r k :=
      funext fun j => dotRow_tile x0 x1 r ⟨k, hk'⟩ j
    have hM' : nextM x0 (tile x1 ⟨k, hk'⟩) (iter x0 x1 x2 ⟨k2_pay1 (F := Ideal), k2_pay2 (F := Ideal), k2_pay3 (F := Ideal)⟩ k).M (ix3 (0 : Fin 1) r (0 : Fin 1))
        = runM (sc x0 x1 r) (k + 1) := by
      rw [nextM_apply, hM, hs]; rfl
    refine ⟨hM', ?_, ?_⟩
    · rw [nextL_apply, hM', hM, hL]
      show _ = Ideal.exp (runM (sc x0 x1 r) k - runM (sc x0 x1 r) (k + 1)) * runL (sc x0 x1 r) k
        + ∑ j : Fin 512, Ideal.exp (sc x0 x1 r k j - runM (sc x0 x1 r) (k + 1))
      exact congrArg (fun z : EReal => Ideal.exp (runM (sc x0 x1 r) k - runM (sc x0 x1 r) (k + 1)) * runL (sc x0 x1 r) k + z)
        (Finset.sum_congr rfl fun j _ => by rw [dotRow_tile])
    · rw [nextA_apply, hM', hM, hA]
      show _ = Ideal.exp (runM (sc x0 x1 r) k - runM (sc x0 x1 r) (k + 1)) * runA (sc x0 x1 r) (vl x2 e) k
        + ∑ j : Fin 512, Ideal.exp (sc x0 x1 r k j - runM (sc x0 x1 r) (k + 1)) * vl x2 e k j
      exact congrArg (fun z : EReal => Ideal.exp (runM (sc x0 x1 r) k - runM (sc x0 x1 r) (k + 1)) * runA (sc x0 x1 r) (vl x2 e) k + z)
        (Finset.sum_congr rfl fun j _ => by rw [dotRow_tile, tile_apply]; rfl)

/-! ## On real inputs: the softmax quotient over all 4096 key rows -/

/-- The real score of query row r against key row j of tile t. -/
def scR (x0 : Vec Ideal S1x512x512 .f32) (x1 : Vec Ideal S1x4096x512 .f32) (r : Fin 512) (t : ℕ) (j : Fin 512) : ℝ :=
  ∑ d : Fin 512, (x0 (ix3 (0 : Fin 1) r d)).toReal * (x1 (ix3 (0 : Fin 1) (rowOf t j) d)).toReal

/-- The real value entry e of row j of tile t. -/
def vlR (x2 : Vec Ideal S1x4096x512 .bf16) (e : Fin 512) (t : ℕ) (j : Fin 512) : ℝ :=
  (x2 (ix3 (0 : Fin 1) (rowOf t j) e)).toReal

theorem sc_coe (x0 : Vec Ideal S1x512x512 .f32) (x1 : Vec Ideal S1x4096x512 .f32) (h0 : IsReal x0) (h1 : IsReal x1)
    (r : Fin 512) : sc x0 x1 r = fun t j => ((scR x0 x1 r t j : ℝ) : EReal) := by
  funext t j
  unfold sc scR
  rw [coe_sum]
  exact Finset.sum_congr rfl fun d _ => by rw [EReal.coe_mul, h0.coe_toReal, h1.coe_toReal]

theorem vl_coe (x2 : Vec Ideal S1x4096x512 .bf16) (h2 : IsReal x2) (e : Fin 512) :
    vl x2 e = fun t j => ((vlR x2 e t j : ℝ) : EReal) :=
  funext fun t => funext fun j => (h2.coe_toReal _).symm

/-- A sum over the 8 tiles of 512 rows is the sum over the 4096 rows. -/
theorem sum_tiles (g : Fin 4096 → ℝ) : ∑ t ∈ Finset.range 8, ∑ j : Fin 512, g (rowOf t j) = ∑ n : Fin 4096, g n := by
  rw [Finset.sum_range, Cert.SumBlocks.sum_blocks 8 512 4096 rfl g]
  refine Finset.sum_congr rfl fun i _ => Finset.sum_congr rfl fun j _ => congrArg g (Fin.ext ?_)
  have := i.isLt
  have := j.isLt
  show (512 * i.val + j.val) % 4096 = i.val * 512 + j.val
  omega

/-- What the body stores at (r, e), on real inputs: the softmax-weighted mean of the value entries. -/
theorem body_apply (x0 : Vec Ideal S1x512x512 .f32) (x1 : Vec Ideal S1x4096x512 .f32) (x2 : Vec Ideal S1x4096x512 .bf16)
    (h0 : IsReal x0) (h1 : IsReal x1) (h2 : IsReal x2) (r e : Fin 512) :
    k2_pay7 (iter x0 x1 x2 ⟨k2_pay1 (F := Ideal), k2_pay2 (F := Ideal), k2_pay3 (F := Ideal)⟩ 8).A (iter x0 x1 x2 ⟨k2_pay1 (F := Ideal), k2_pay2 (F := Ideal), k2_pay3 (F := Ideal)⟩ 8).L (ix3 (0 : Fin 1) r e)
      = (((∑ n : Fin 4096, Real.exp (∑ d : Fin 512, (x0 (ix3 0 r d)).toReal * (x1 (ix3 0 n d)).toReal) * (x2 (ix3 0 n e)).toReal)
          / (∑ n : Fin 4096, Real.exp (∑ d : Fin 512, (x0 (ix3 0 r d)).toReal * (x1 (ix3 0 n d)).toReal)) : ℝ) : EReal) := by
  obtain ⟨_, hL, hA⟩ := iter_run x0 x1 x2 r e 8 le_rfl
  have hN := sum_tiles fun n =>
    Real.exp (∑ d : Fin 512, (x0 (ix3 (0 : Fin 1) r d)).toReal * (x1 (ix3 (0 : Fin 1) n d)).toReal) * (x2 (ix3 (0 : Fin 1) n e)).toReal
  have hD := sum_tiles fun n =>
    Real.exp (∑ d : Fin 512, (x0 (ix3 (0 : Fin 1) r d)).toReal * (x1 (ix3 (0 : Fin 1) n d)).toReal)
  rw [pay7_apply, hA, hL, sc_coe x0 x1 h0 h1 r, vl_coe x2 h2 e,
    online_softmax (n := 512) (by decide) (scR x0 x1 r) (vlR x2 e) 8 (by decide), ← hN, ← hD]
  rfl

end Cert.Attn.R2

end
-- ==== Proof.Region2Arr.lean ====
/-
  From the attention region's blocks to its whole output array.

  The region visits 2 × 8 grid points (batch b, query tile qi). At a point it holds the block of 512 projected
  query rows from row 512·qi of batch b, and all 4096 projected key rows and value rows of batch b; it writes back
  the block of 512 output rows from row 512·qi of batch b, which is the body's recurrence applied to those three
  blocks. The output blocks tile the output array, so the array ends holding, at batch b, row 512·qi + r and
  feature e, entry (r, e) of the body's result on the blocks of (b, qi).
-/
import proofs.«124495_j22789096472738_2_alg».proof.Proof.Region2Vec
import Idealize.ShloMosaic.Lib.Pipeline.Value
import Idealize.ShloMosaic.Lib.ValueIdx

set_option maxRecDepth 16384

noncomputable section

namespace Cert.Attn.R2

open Idealize.ShloMosaic Idealize.ShloMosaic.TcCoe Idealize.ShloMosaic.ValueIdx Idealize.SL.Sem
open Cert.KernelIdeal Cert.KernelIdeal.Gen

variable {F : FTy → Type} [FloatOps F]
variable (V : (c : Dev nD) → (b : Ref sig .tc) → Buf (Elt F) ((c : Thread nD τ).loc b)) (c : Dev nD)

/-! ## The blocks and the body -/

/-- The block of 512 query rows from row 512·qi of batch b. -/
def qblk (b : Fin 2) (qi : Fin 8) : Vec F S1x512x512 .f32 := fun y =>
  (V c main_v3 : S2x4096x512.Idx → Elt F .f32)
    (ix3 b ⟨512 * qi.val + (y 1).val, by have h : (y 1).val < 512 := (y 1).isLt; omega⟩ ⟨(y 2).val, (y 2).isLt⟩)

/-- All key rows of batch b. -/
def kblk (b : Fin 2) : Vec F S1x4096x512 .f32 := fun y =>
  (V c main_v5 : S2x4096x512.Idx → Elt F .f32) (ix3 b ⟨(y 1).val, (y 1).isLt⟩ ⟨(y 2).val, (y 2).isLt⟩)

/-- All value rows of batch b. -/
def vblk (b : Fin 2) : Vec F S1x4096x512 .bf16 := fun y =>
  (V c main_v6 : S2x4096x512.Idx → Elt F .bf16) (ix3 b ⟨(y 1).val, (y 1).isLt⟩ ⟨(y 2).val, (y 2).isLt⟩)

/-- The body on three blocks: the accumulated rows over the normalizers after the 8 key tiles. -/
def body (x0 : Vec F S1x512x512 .f32) (x1 : Vec F S1x4096x512 .f32) (x2 : Vec F S1x4096x512 .bf16) :
    Vec F S1x512x512 .f32 :=
  k2_pay7 (iter x0 x1 x2 ⟨k2_pay1, k2_pay2, k2_pay3⟩ 8).A (iter x0 x1 x2 ⟨k2_pay1, k2_pay2, k2_pay3⟩ 8).L

/-- The output block of batch b, query tile qi. -/
def blockOut (b : Fin 2) (qi : Fin 8) : Vec F S1x512x512 .f32 := body (qblk V c b qi) (kblk V c b) (vblk V c b)

/-- The whole output array: row s of batch b lies in query tile s / 512, at row s % 512 of its block. -/
def G2 : S2x4096x512.Idx → Elt F .f32 := fun i =>
  blockOut V c ⟨(i 0).val, (i 0).isLt⟩
    ⟨(i 1).val / 512, by have h : (i 1).val < 4096 := (i 1).isLt; omega⟩
    (ix3 (0 : Fin 1) ⟨(i 1).val % 512, by omega⟩ ⟨(i 2).val, (i 2).isLt⟩)

/-- The whole array at an index given by its batch, tile and place in the block. -/
theorem G2_at (b : Fin 2) (qi : Fin 8) (i : S2x4096x512.Idx) (j : S1x512x512.Idx) (h0 : (i 0).val = b.val)
    (h1 : (i 1).val = 512 * qi.val + (j 1).val) (h2 : (i 2).val = (j 2).val) :
    G2 V c i = blockOut V c b qi j := by
  have hj0 : (j 0).val < 1 := (j 0).isLt
  have hj1 : (j 1).val < 512 := (j 1).isLt
  have hi1 : (i 1).val < 4096 := (i 1).isLt
  have eb : (⟨(i 0).val, (i 0).isLt⟩ : Fin 2) = b := Fin.ext h0
  have eq : (⟨(i 1).val / 512, by omega⟩ : Fin 8) = qi := Fin.ext (by show (i 1).val / 512 = qi.val; omega)
  have ej : (ix3 (0 : Fin 1) (⟨(i 1).val % 512, by omega⟩ : Fin 512) (⟨(i 2).val, (i 2).isLt⟩ : Fin 512) : S1x512x512.Idx) = j := by
    funext a
    apply Fin.ext
    match a with
    | ⟨0, _⟩ => show (0 : Nat) = (j 0).val; omega
    | ⟨1, _⟩ => show (i 1).val % 512 = (j 1).val; omega
    | ⟨2, _⟩ => show (i 2).val = (j 2).val; exact h2
  show blockOut V c _ _ _ = _
  exact congr (congr (congrArg (blockOut V c) eb) eq) ej

/-! ## The index maps, decided once over the grid -/

theorem t_lt (t : Fin cfg2.N) : t.val < 16 := lt_of_lt_of_eq t.isLt N_2

/-- Point t is batch t / 8, query tile t % 8: the query and output windows sit at block (t / 8, t % 8, 0), the key
    and value windows at block (t / 8, 0, 0). -/
theorem idx_facts : ∀ t : Fin cfg2.N,
    win2_0.index t (0 : Fin 3) = t.val / 8 ∧ win2_0.index t (1 : Fin 3) = t.val % 8 ∧ win2_0.index t (2 : Fin 3) = 0
    ∧ win2_1.index t (0 : Fin 3) = t.val / 8 ∧ win2_1.index t (1 : Fin 3) = 0 ∧ win2_1.index t (2 : Fin 3) = 0
    ∧ win2_2.index t (0 : Fin 3) = t.val / 8 ∧ win2_2.index t (1 : Fin 3) = 0 ∧ win2_2.index t (2 : Fin 3) = 0
    ∧ win2_3.index t (0 : Fin 3) = t.val / 8 ∧ win2_3.index t (1 : Fin 3) = t.val % 8 ∧ win2_3.index t (2 : Fin 3) = 0 :=
  (by decide +kernel : ∀ t : Fin grid2.N, _)

/-- The batch and the query tile of a grid point. -/
def bOf (t : Fin cfg2.N) : Fin 2 := ⟨t.val / 8, by have := t_lt t; omega⟩
def qOf (t : Fin cfg2.N) : Fin 8 := ⟨t.val % 8, by omega⟩

/-! ## The input blocks at a point, read off the arrays -/

/-- The query window's block at point t is rows 512·(t % 8) … of batch t / 8 of the projected queries. -/
theorem iblk2_0_apply (t : Fin cfg2.N) (y : S1x512x512.Idx) (k : S2x4096x512.Idx)
    (hk0 : (k 0).val = t.val / 8) (hk1 : (k 1).val = 512 * (t.val % 8) + (y 1).val) (hk2 : (k 2).val = (y 2).val) :
    (iblk2 V c 0 t : Vec F S1x512x512 .f32) y = (V c main_v3 : S2x4096x512.Idx → Elt F .f32) k := by
  obtain ⟨e0, e1, e2, -⟩ := idx_facts t
  have hy0 : (y 0).val < 1 := (y 0).isLt
  unfold iblk2
  rw [View.read_apply]
  show V c main_v3 _ = V c main_v3 _
  congr 1
  funext a
  apply Fin.ext
  match a with
  | ⟨0, _⟩ => show win2_0.index t (0 : Fin 3) * 1 + 1 * (y 0).val = (k 0).val; rw [e0, hk0]; omega
  | ⟨1, _⟩ => show win2_0.index t (1 : Fin 3) * 512 + 1 * (y 1).val = (k 1).val; rw [e1, hk1]; omega
  | ⟨2, _⟩ => show win2_0.index t (2 : Fin 3) * 512 + 1 * (y 2).val = (k 2).val; rw [e2, hk2]; omega

/-- The key window's block at point t is all rows of batch t / 8 of the projected keys. -/
theorem iblk2_1_apply (t : Fin cfg2.N) (y : S1x4096x512.Idx) (k : S2x4096x512.Idx)
    (hk0 : (k 0).val = t.val / 8) (hk1 : (k 1).val = (y 1).val) (hk2 : (k 2).val = (y 2).val) :
    (iblk2 V c 1 t : Vec F S1x4096x512 .f32) y = (V c main_v5 : S2x4096x512.Idx → Elt F .f32) k := by
  obtain ⟨-, -, -, e0, e1, e2, -⟩ := idx_facts t
  have hy0 : (y 0).val < 1 := (y 0).isLt
  unfold iblk2
  rw [View.read_apply]
  show V c main_v5 _ = V c main_v5 _
  congr 1
  funext a
  apply Fin.ext
  match a with
  | ⟨0, _⟩ => show win2_1.index t (0 : Fin 3) * 1 + 1 * (y 0).val = (k 0).val; rw [e0, hk0]; omega
  | ⟨1, _⟩ => show win2_1.index t (1 : Fin 3) * 4096 + 1 * (y 1).val = (k 1).val; rw [e1, hk1]; omega
  | ⟨2, _⟩ => show win2_1.index t (2 : Fin 3) * 512 + 1 * (y 2).val = (k 2).val; rw [e2, hk2]; omega

/-- The value window's block at point t is all rows of batch t / 8 of the values. -/
theorem iblk2_2_apply (t : Fin cfg2.N) (y : S1x4096x512.Idx) (k : S2x4096x512.Idx)
    (hk0 : (k 0).val = t.val / 8) (hk1 : (k 1).val = (y 1).val) (hk2 : (k 2).val = (y 2).val) :
    (iblk2 V c 2 t : Vec F S1x4096x512 .bf16) y = (V c main_v6 : S2x4096x512.Idx → Elt F .bf16) k := by
  obtain ⟨-, -, -, -, -, -, e0, e1, e2, -⟩ := idx_facts t
  have hy0 : (y 0).val < 1 := (y 0).isLt
  unfold iblk2
  rw [View.read_apply]
  show V c main_v6 _ = V c main_v6 _
  congr 1
  funext a
  apply Fin.ext
  match a with
  | ⟨0, _⟩ => show win2_2.index t (0 : Fin 3) * 1 + 1 * (y 0).val = (k 0).val; rw [e0, hk0]; omega
  | ⟨1, _⟩ => show win2_2.index t (1 : Fin 3) * 4096 + 1 * (y 1).val = (k 1).val; rw [e1, hk1]; omega
  | ⟨2, _⟩ => show win2_2.index t (2 : Fin 3) * 512 + 1 * (y 2).val = (k 2).val; rw [e2, hk2]; omega

theorem iblk2_0_eq (t : Fin cfg2.N) : (iblk2 V c 0 t : Vec F S1x512x512 .f32) = qblk V c (bOf t) (qOf t) :=
  funext fun y => iblk2_0_apply V c t y _ rfl rfl rfl
theorem iblk2_1_eq (t : Fin cfg2.N) : (iblk2 V c 1 t : Vec F S1x4096x512 .f32) = kblk V c (bOf t) :=
  funext fun y => iblk2_1_apply V c t y _ rfl rfl rfl
theorem iblk2_2_eq (t : Fin cfg2.N) : (iblk2 V c 2 t : Vec F S1x4096x512 .bf16) = vblk V c (bOf t) :=
  funext fun y => iblk2_2_apply V c t y _ rfl rfl rfl

/-- What the body leaves in the output's staging buffer at point t: the output block of (t / 8, t % 8). -/
theorem outsAt2_eq (t : Fin cfg2.N) : outsAt2 V c t = blockOut V c (bOf t) (qOf t) := by
  unfold outsAt2
  rw [out_eq, iblk2_0_eq, iblk2_1_eq, iblk2_2_eq]
  rfl

/-! ## From the blocks to the array -/

/-- What point t writes back is block t of the whole array. -/
theorem flushed_eq (t : Fin cfg2.N) :
    (dat2 V c).flushed 3 t = ((cfg2.win 3).blk t).view.read (Elt F) (G2 V c) := by
  show (cfg2.win 3).cut (grid2.coords t) ((dat2 V c).after 3 t) = _
  rw [after2_3, outsAt2_eq]
  obtain ⟨-, -, -, -, -, -, -, -, -, e0, e1, e2⟩ := idx_facts t
  funext j
  have hj0 : (j 0).val < 1 := (j 0).isLt
  rw [View.read_apply]
  show blockOut V c (bOf t) (qOf t) _ = G2 V c (((cfg2.win 3).blk t).view.emb j)
  refine (G2_at V c (bOf t) (qOf t) _ _ ?_ ?_ ?_).symm
  · show win2_3.index t (0 : Fin 3) * 1 + 1 * (j 0).val = t.val / 8
    rw [e0]; omega
  · show win2_3.index t (1 : Fin 3) * 512 + 1 * (j 1).val = 512 * (t.val % 8) + (j 1).val
    rw [e1]; omega
  · show win2_3.index t (2 : Fin 3) * 512 + 1 * (j 2).val = (j 2).val
    rw [e2]; omega

/-- An index of the array is in point t's block iff each coordinate is in the block's range on its axis. -/
theorem mem_blk (t : Fin cfg2.N) (i : S2x4096x512.Idx) :
    i ∈ ((cfg2.win 3).blk t).view.set ↔ ∀ a : Fin 3, win2_3.index t a * S1x512x512.size a ≤ (i a).val
      ∧ (i a).val < win2_3.index t a * S1x512x512.size a + S1x512x512.size a := by
  show i ∈ ((View.whole main_v7).slice (win2_3.rect t)).set ↔ _
  rw [View.set_slice_whole, Rect.mem_set_unit]
  exact Iff.rfl

/-- The output blocks tile the array: row s of batch b is in the block of point 8·b + s / 512. -/
theorem cover (i : S2x4096x512.Idx) :
    ∃ t : Fin cfg2.N, (cfg2.win 3).flush t = true ∧ i ∈ ((cfg2.win 3).blk t).view.set := by
  have hi0 : (i 0).val < 2 := (i 0).isLt
  have hi1 : (i 1).val < 4096 := (i 1).isLt
  have hi2 : (i 2).val < 512 := (i 2).isLt
  have hN : cfg2.N = 16 := N_2
  obtain ⟨t, ht⟩ : ∃ t : Fin cfg2.N, t.val = 8 * (i 0).val + (i 1).val / 512 := ⟨⟨_, by rw [hN]; omega⟩, rfl⟩
  obtain ⟨-, -, -, -, -, -, -, -, -, e0, e1, e2⟩ := idx_facts t
  refine ⟨t, flush2_3 t, ?_⟩
  rw [mem_blk]
  intro a
  match a with
  | ⟨0, _⟩ =>
    show win2_3.index t (0 : Fin 3) * 1 ≤ (i 0).val ∧ (i 0).val < win2_3.index t (0 : Fin 3) * 1 + 1
    rw [e0, ht]; omega
  | ⟨1, _⟩ =>
    show win2_3.index t (1 : Fin 3) * 512 ≤ (i 1).val ∧ (i 1).val < win2_3.index t (1 : Fin 3) * 512 + 512
    rw [e1, ht]; omega
  | ⟨2, _⟩ =>
    show win2_3.index t (2 : Fin 3) * 512 ≤ (i 2).val ∧ (i 2).val < win2_3.index t (2 : Fin 3) * 512 + 512
    rw [e2]; omega

/-- The output array after the region: the whole-array function of the region-entry contents. -/
theorem final : (dat2 V c).arrAt 3 cfg2.N = G2 V c :=
  (dat2 V c).arrAt_eq_of_cover 3 (G2 V c) (fun t _ => flushed_eq V c t) (cover)

/-- The output array at batch b, row 512·qi + r, feature e: entry (r, e) of the body's result on the query block of
    (b, qi) and the key and value rows of batch b. -/
theorem arr2_apply (b : Fin 2) (qi : Fin 8) (r e : Fin 512) :
    ((dat2 V c).arrAt 3 cfg2.N : S2x4096x512.Idx → Elt F .f32) (ix3 b ⟨512 * qi.val + r.val, by omega⟩ e)
      = body (qblk V c b qi) (kblk V c b) (vblk V c b) (ix3 (0 : Fin 1) r e) :=
  (congrFun (final V c) _).trans (G2_at V c b qi _ (ix3 (0 : Fin 1) r e) rfl rfl rfl)

end Cert.Attn.R2

end
-- ==== Proof.Bridge.lean ====
/-
  The kernel program's result is the specification, on finite inputs.

  The result buffer holds what the third region's write-backs leave: block (b, qi) of it is the body's output on
  the 512 projected query rows from row 512·qi of batch b, on the batch's projected keys and on its raw key rows
  as values. Those three arrays are, entry by entry, real numbers — the projections ⟨x[b,s,:], w[:,e]⟩ and the
  key entries themselves — so the body's running softmax ends at the unshifted softmax quotient of `Spec.lean`.
-/
import proofs.«124495_j22789096472738_2_alg».proof.Proof.Spec
import proofs.«124495_j22789096472738_2_alg».proof.Proof.ProjValue
import proofs.«124495_j22789096472738_2_alg».proof.Proof.Region2Idx
import proofs.«124495_j22789096472738_2_alg».proof.Proof.Region2Arr

set_option maxRecDepth 16384

noncomputable section

namespace Cert.Attn.Bridge

open Idealize.ShloMosaic Idealize.ShloMosaic.TcCoe Idealize.ShloMosaic.ValueIdx Idealize.SL.Sem
open Cert.KernelIdeal Cert.KernelIdeal.Gen Cert.Attn Cert.Attn.R2

variable (m : (ℓ : Loc nD τ sig) → Buf (Elt Ideal) ℓ) (ρ : Dev nD → PrngReg) (c : Dev nD)

/-- The argument arrays, as arrays of extended reals. -/
abbrev query : SA.Idx → EReal := m ((c.tc : Thread nD τ).loc main_arg0)
abbrev key : SA.Idx → EReal := m ((c.tc : Thread nD τ).loc main_arg1)
abbrev wq : SW.Idx → EReal := m ((c.tc : Thread nD τ).loc main_arg2)
abbrev wk : SW.Idx → EReal := m ((c.tc : Thread nD τ).loc main_arg3)

/-- A projection of real arrays is the coercion of the real projection. -/
theorem projE_real (x : SA.Idx → EReal) (w : SW.Idx → EReal) (hx : IsReal x) (hw : IsReal w) (b : Fin 2) (s : Fin 4096)
    (e : Fin 512) : Proj.projE x w b s e = ((proj x w b s e : ℝ) : EReal) := by
  unfold Proj.projE proj
  rw [coe_sum]
  refine Finset.sum_congr rfl fun d _ => ?_
  rw [EReal.coe_mul, hx.coe_toReal, hw.coe_toReal]

section
variable (hq : IsReal (query m c)) (hk : IsReal (key m c)) (hwq : IsReal (wq m c)) (hwk : IsReal (wk m c))
include hq hwq in
/-- The projected queries the third region finds are the real projections. -/
theorem q_real (b : Fin 2) (s : Fin 4096) (e : Fin 512) :
    (V5 (F := Ideal) m ρ c main_v3 : S2x4096x512.Idx → EReal) (ix3 b s e) = ((proj (query m c) (wq m c) b s e : ℝ) : EReal) := by
  exact (Proj.V5_q m ρ c b s e).trans (projE_real _ _ hq hwq b s e)

include hk hwk in
/-- The projected keys the third region finds are the real projections. -/
theorem k_real (b : Fin 2) (s : Fin 4096) (e : Fin 512) :
    (V5 (F := Ideal) m ρ c main_v5 : S2x4096x512.Idx → EReal) (ix3 b s e) = ((proj (key m c) (wk m c) b s e : ℝ) : EReal) := by
  exact (Proj.V5_k m ρ c b s e).trans (projE_real _ _ hk hwk b s e)

include hk in
/-- The values the third region finds are the key entries themselves. -/
theorem v_real (b : Fin 2) (s : Fin 4096) (e : Fin 512) :
    (V5 (F := Ideal) m ρ c main_v6 : S2x4096x512.Idx → EReal) (ix3 b s e) = (((key m c (ix3 b s e)).toReal : ℝ) : EReal) := by
  exact (Proj.V5_v m ρ c b s e).trans (hk.coe_toReal _).symm

include hq hk hwq hwk in
/-- THE KERNEL'S RESULT: after the run the result buffer is the specification's array. -/
theorem kernel_value :
    (W6 (F := Ideal) m ρ c (Proc.devRef .tc main_v7) : SA.Idx → EReal) = G (query m c) (key m c) (wq m c) (wk m c) := by
  funext i
  obtain ⟨b, s, e, rfl⟩ : ∃ (b : Fin 2) (s : Fin 4096) (e : Fin 512), i = ix3 b s e := ⟨i 0, i 1, i 2, eq_ix3 i⟩
  obtain ⟨qi, r, rfl⟩ : ∃ (qi : Fin 8) (r : Fin 512), s = ⟨512 * qi.val + r.val, by omega⟩ :=
    ⟨⟨s.val / 512, by omega⟩, ⟨s.val % 512, Nat.mod_lt _ (by norm_num)⟩, Fin.ext (by show s.val = 512 * (s.val / 512) + s.val % 512; omega)⟩
  rw [G_apply]
  have hW : (W6 (F := Ideal) m ρ c (Proc.devRef .tc main_v7) : SA.Idx → EReal) = (dat2 (V5 m ρ) c).arrAt 3 cfg2.N :=
    W6_arr m ρ c 3
  rw [hW, arr2_apply]
  unfold body
  have h0 : IsReal (qblk (V5 (F := Ideal) m ρ) c b qi) := fun y => ⟨_, q_real m ρ c hq hwq _ _ _⟩
  have h1 : IsReal (kblk (V5 (F := Ideal) m ρ) c b) := fun y => ⟨_, k_real m ρ c hk hwk _ _ _⟩
  have h2 : IsReal (vblk (V5 (F := Ideal) m ρ) c b : S1x4096x512.Idx → EReal) := fun y => ⟨_, v_real m ρ c hk _ _ _⟩
  rw [body_apply _ _ _ h0 h1 h2]
  have e0 : ∀ d : Fin 512, (qblk (V5 (F := Ideal) m ρ) c b qi (ix3 (0 : Fin 1) r d)).toReal
      = proj (query m c) (wq m c) b ⟨512 * qi.val + r.val, by omega⟩ d := fun d => by
    show ((V5 (F := Ideal) m ρ c main_v3 : S2x4096x512.Idx → EReal) (ix3 b ⟨512 * qi.val + r.val, _⟩ d)).toReal = _
    rw [q_real m ρ c hq hwq, EReal.toReal_coe]
  have e1 : ∀ (n : Fin 4096) (d : Fin 512), (kblk (V5 (F := Ideal) m ρ) c b (ix3 (0 : Fin 1) n d)).toReal
      = proj (key m c) (wk m c) b n d := fun n d => by
    show ((V5 (F := Ideal) m ρ c main_v5 : S2x4096x512.Idx → EReal) (ix3 b n d)).toReal = _
    rw [k_real m ρ c hk hwk, EReal.toReal_coe]
  have e2 : ∀ n : Fin 4096, ((vblk (V5 (F := Ideal) m ρ) c b : S1x4096x512.Idx → EReal) (ix3 (0 : Fin 1) n e)).toReal
      = (key m c (ix3 b n e)).toReal := fun n => by
    show ((V5 (F := Ideal) m ρ c main_v6 : S2x4096x512.Idx → EReal) (ix3 b n e)).toReal = _
    rw [v_real m ρ c hk, EReal.toReal_coe]
  simp only [e0, e1, e2]
  rfl
end

end Cert.Attn.Bridge

end
-- ==== Proof.LibHostRowMax.lean ====
/-
  The host's maximum over the last axis of a three-axis array, read on the extended reals.

  A reduction with a maximum body over the last axis of an [a, b, n] array is, at (p, q), the fold of max from the
  initial value over the n entries (p, q, d), in any order: max is commutative and associative.  The extents are
  variables.
-/
import Idealize.ShloMosaic.Lib.ValueIdx
import Idealize.ShloMosaic.PureOps.Ideal.Laws

noncomputable section

namespace Cert.HostRowMax

open Idealize.ShloMosaic Idealize.ShloMosaic.ValueIdx

/-- The reduced index (p, q) with coordinate d put back on the last axis is (p, q, d). -/
theorem lift_last {a b n : ℕ} (h : (⟨3, ![a, b, n]⟩ : Shape).Reduces [2] ⟨2, ![a, b]⟩) (p : Fin a) (q : Fin b)
    (d : Fin ((⟨3, ![a, b, n]⟩ : Shape).size 2)) :
    h.lift (ix2 p q) d = ix3 p q (⟨d.val, d.isLt⟩ : Fin n) := by
  funext ax; apply Fin.ext
  fin_cases ax <;> rfl

/-- The host's reduction with a maximum body over the last axis of an [a, b, n] array of extended reals: at (p, q) the
    fold of max from the initial value over the entries (p, q, d). -/
theorem host_max_over_last_apply {a b n : ℕ} (x : FVec Ideal ⟨3, ![a, b, n]⟩ .f32) (init : FVec Ideal ⟨0, ![]⟩ .f32)
    (h' : (⟨3, ![a, b, n]⟩ : Shape).ReducesTo [2] ⟨2, ![a, b]⟩) (h : (⟨3, ![a, b, n]⟩ : Shape).Reduces [2] ⟨2, ![a, b]⟩)
    (hu : 0 < (⟨0, ![]⟩ : Shape).numel) (p : Fin a) (q : Fin b) :
    Host.reduce FloatOps.maximumf x init h' hu (ix2 p q)
      = (Finset.univ : Finset (Fin n)).fold max (init ix0) (fun d => x (ix3 p q d)) := by
  rw [Host.reduce_eq_fold_single FloatOps.maximumf x init h' h hu, eq_ix0 (Shape.Idx.first hu)]
  have hf : (x ∘ h.lift (ix2 p q)) = fun d : Fin n => x (ix3 p q d) :=
    funext fun d => congrArg x (lift_last h p q d)
  exact congrArg (fun f => Finset.fold max (init ix0) f (Finset.univ : Finset (Fin n))) hf

end Cert.HostRowMax

end
-- ==== Proof.RefValue.lean ====
/-
  The reference program computes the specification.

  The reference projects queries and keys (Q = query · W_q, K = key · W_k), forms every score ⟨Q[b,q,:], K[b,k,:]⟩,
  subtracts from each row of scores its maximum, exponentiates, divides each weight by the row's sum of weights and
  only then contracts the normalized weights with the unprojected key rows.  On real inputs every projection entry and
  every score is a real number, so the row maximum M is a real number, and the shifted, pre-normalized softmax
  Σ_k (exp(s_k − M) / Σ_k' exp(s_k' − M)) · v_k is the unshifted quotient (Σ_k exp(s_k) · v_k) / (Σ_k exp(s_k)),
  which is the specification's `out`.
-/
import proofs.«124495_j22789096472738_2_alg».proof.Proof.Gen.ReferenceIdeal.Read
import proofs.«124495_j22789096472738_2_alg».proof.Proof.Spec
import proofs.«124495_j22789096472738_2_alg».proof.Proof.Softmax
import proofs.«124495_j22789096472738_2_alg».proof.Proof.LibHostRowMax

noncomputable section

namespace Cert.Attn.Ref

open Idealize.ShloMosaic Idealize.ShloMosaic.ValueIdx Cert.ReferenceIdeal Cert.ReferenceIdeal.Read

/-! ## The index functions of the contractions, reductions and broadcasts, in coordinates -/

theorem lidx_v0 (b : Fin 2) (s : Fin 4096) (e d : Fin 512) : lidx_main_v0 (ix3 b s e) d = ix3 b s d :=
  funext fun a => Fin.ext (by match a with | ⟨0, _⟩ => rfl | ⟨1, _⟩ => rfl | ⟨2, _⟩ => rfl)

theorem ridx_v0 (b : Fin 2) (s : Fin 4096) (e d : Fin 512) : ridx_main_v0 (ix3 b s e) d = ix2 d e :=
  funext fun a => Fin.ext (by match a with | ⟨0, _⟩ => rfl | ⟨1, _⟩ => rfl)

theorem lidx_v2 (b : Fin 2) (q k : Fin 4096) (d : Fin 512) : lidx_main_v2 (ix3 b q k) d = ix3 b q d :=
  funext fun a => Fin.ext (by match a with | ⟨0, _⟩ => rfl | ⟨1, _⟩ => rfl | ⟨2, _⟩ => rfl)

theorem ridx_v2 (b : Fin 2) (q k : Fin 4096) (d : Fin 512) : ridx_main_v2 (ix3 b q k) d = ix3 b k d :=
  funext fun a => Fin.ext (by match a with | ⟨0, _⟩ => rfl | ⟨1, _⟩ => rfl | ⟨2, _⟩ => rfl)

theorem idx_v7 (b : Fin 2) (q k : Fin 4096) : idx_main_v7 (ix3 b q k) = ix3 b q (0 : Fin 1) :=
  funext fun a => Fin.ext (by match a with | ⟨0, _⟩ => rfl | ⟨1, _⟩ => rfl | ⟨2, _⟩ => rfl)

theorem idx_v6 (b : Fin 2) (q : Fin 4096) : idx_main_v6 (ix3 b q (0 : Fin 1)) = ix2 b q :=
  funext fun a => Fin.ext (by match a with | ⟨0, _⟩ => rfl | ⟨1, _⟩ => rfl)

theorem idx_v10 (b : Fin 2) (q k : Fin 4096) : idx_main_v10 (ix2 b q) k = ix3 b q k :=
  funext fun a => Fin.ext (by match a with | ⟨0, _⟩ => rfl | ⟨1, _⟩ => rfl | ⟨2, _⟩ => rfl)

theorem lidx_v14 (b : Fin 2) (q : Fin 4096) (e : Fin 512) (k : Fin 4096) : lidx_main_v14 (ix3 b q e) k = ix3 b q k :=
  funext fun a => Fin.ext (by match a with | ⟨0, _⟩ => rfl | ⟨1, _⟩ => rfl | ⟨2, _⟩ => rfl)

theorem ridx_v14 (b : Fin 2) (q : Fin 4096) (e : Fin 512) (k : Fin 4096) : ridx_main_v14 (ix3 b q e) k = ix3 b k e :=
  funext fun a => Fin.ext (by match a with | ⟨0, _⟩ => rfl | ⟨1, _⟩ => rfl | ⟨2, _⟩ => rfl)

/-! ## The projections and the scores are real numbers -/

/-- A projected row entry: the coercion of the real projection. -/
theorem v0_apply (x : SA.Idx → EReal) (w : SW.Idx → EReal) (hx : IsReal x) (hw : IsReal w)
    (b : Fin 2) (s : Fin 4096) (e : Fin 512) :
    val_main_v0 (F := Ideal) x w (ix3 b s e) = ((proj x w b s e : ℝ) : EReal) := by
  rw [val_main_v0_apply, proj, coe_sum]
  refine Finset.sum_congr rfl fun d _ => ?_
  rw [lidx_v0, ridx_v0, EReal.coe_mul, hx.coe_toReal, hw.coe_toReal]

/-- A score: the coercion of the real score. -/
theorem v2_apply (x0 x1 : SA.Idx → EReal) (x2 x3 : SW.Idx → EReal) (h0 : IsReal x0) (h1 : IsReal x1) (h2 : IsReal x2)
    (h3 : IsReal x3) (b : Fin 2) (q k : Fin 4096) :
    val_main_v2 (F := Ideal) x0 x1 x2 x3 (ix3 b q k) = ((score x0 x1 x2 x3 b q k : ℝ) : EReal) := by
  rw [val_main_v2_apply, score, coe_sum]
  refine Finset.sum_congr rfl fun d _ => ?_
  rw [lidx_v2, ridx_v2, v0_apply x0 x2 h0 h2, show val_main_v1 (F := Ideal) x1 x3 = val_main_v0 (F := Ideal) x1 x3 from rfl,
    v0_apply x1 x3 h1 h3, EReal.coe_mul]

/-! ## The row maximum -/

theorem neg_inf_word : Ideal.ofBits .f32 0xFF800000#32 = (⊥ : EReal) := by simp [Ideal.ofBits, Ideal.ieee]

/-- The maximum of a row of scores, folded from −∞: the tile maximum of the real scores. -/
theorem v3_apply (x0 x1 : SA.Idx → EReal) (x2 x3 : SW.Idx → EReal) (h0 : IsReal x0) (h1 : IsReal x1) (h2 : IsReal x2)
    (h3 : IsReal x3) (b : Fin 2) (q : Fin 4096) :
    val_main_v3 (F := Ideal) x0 x1 x2 x3 (ix2 b q) = tileMax (fun k : Fin 4096 => ((score x0 x1 x2 x3 b q k : ℝ) : EReal)) := by
  unfold val_main_v3 tileMax
  rw [Cert.HostRowMax.host_max_over_last_apply (a := 2) (b := 4096) (n := 4096) _ _ _ (by decide) _ b q]
  rw [val_main_cst_apply, Ideal.ofBits_def, neg_inf_word]
  exact congrArg (fun f => Finset.fold max (⊥ : EReal) f (Finset.univ : Finset (Fin 4096)))
    (funext fun k => v2_apply x0 x1 x2 x3 h0 h1 h2 h3 b q k)

/-- The row maximum, after the maximum with the −∞ broadcast, is a real number. -/
theorem v5_real (x0 x1 : SA.Idx → EReal) (x2 x3 : SW.Idx → EReal) (h0 : IsReal x0) (h1 : IsReal x1) (h2 : IsReal x2)
    (h3 : IsReal x3) (b : Fin 2) (q : Fin 4096) :
    ∃ M : ℝ, val_main_v5 (F := Ideal) x0 x1 x2 x3 (ix2 b q) = (M : EReal) := by
  obtain ⟨M, hM⟩ := tileMax_coe (n := 4096) (by decide) (fun k => score x0 x1 x2 x3 b q k)
  refine ⟨M, ?_⟩
  rw [val_main_v5_apply, val_main_v4_apply, val_main_cst_0_apply, Ideal.ofBits_def, neg_inf_word, Ideal.maximumf_def,
    v3_apply x0 x1 x2 x3 h0 h1 h2 h3, hM]
  exact max_eq_right bot_le

/-! ## The shifted weights, their sum, and the normalized weights -/

/-- The row maximum broadcast back along the key axis. -/
theorem v7_apply (x0 x1 : SA.Idx → EReal) (x2 x3 : SW.Idx → EReal) (b : Fin 2) (q k : Fin 4096) :
    val_main_v7 (F := Ideal) x0 x1 x2 x3 (ix3 b q k) = val_main_v5 (F := Ideal) x0 x1 x2 x3 (ix2 b q) := by
  rw [val_main_v7_apply, idx_v7, val_main_v6_apply, idx_v6]

/-- A weight: exp of the score minus the row maximum M. -/
theorem v9_apply (x0 x1 : SA.Idx → EReal) (x2 x3 : SW.Idx → EReal) (h0 : IsReal x0) (h1 : IsReal x1) (h2 : IsReal x2)
    (h3 : IsReal x3) (b : Fin 2) (q : Fin 4096) (M : ℝ)
    (hM : val_main_v5 (F := Ideal) x0 x1 x2 x3 (ix2 b q) = (M : EReal)) (k : Fin 4096) :
    val_main_v9 (F := Ideal) x0 x1 x2 x3 (ix3 b q k)
      = Ideal.exp (((score x0 x1 x2 x3 b q k : ℝ) : EReal) - (M : EReal)) := by
  rw [val_main_v9_apply, Ideal.hostUnary_exp_def, val_main_v8_apply, Ideal.subf_def, v2_apply x0 x1 x2 x3 h0 h1 h2 h3,
    v7_apply, hM]

/-- The row's normalizer: the sum of its weights (the sum starts from the zero word). -/
theorem v10_apply (x0 x1 : SA.Idx → EReal) (x2 x3 : SW.Idx → EReal) (h0 : IsReal x0) (h1 : IsReal x1) (h2 : IsReal x2)
    (h3 : IsReal x3) (b : Fin 2) (q : Fin 4096) (M : ℝ)
    (hM : val_main_v5 (F := Ideal) x0 x1 x2 x3 (ix2 b q) = (M : EReal)) :
    val_main_v10 (F := Ideal) x0 x1 x2 x3 (ix2 b q)
      = ∑ k : Fin 4096, Ideal.exp (((score x0 x1 x2 x3 b q k : ℝ) : EReal) - (M : EReal)) := by
  rw [val_main_v10_apply, val_main_cst_1_apply, Ideal.ofBits_def, Ideal.ofBits_zero_f32, zero_add]
  refine Finset.sum_congr rfl fun k _ => ?_
  rw [idx_v10, v9_apply x0 x1 x2 x3 h0 h1 h2 h3 b q M hM]

/-- The normalizer broadcast back along the key axis. -/
theorem v12_apply (x0 x1 : SA.Idx → EReal) (x2 x3 : SW.Idx → EReal) (b : Fin 2) (q k : Fin 4096) :
    val_main_v12 (F := Ideal) x0 x1 x2 x3 (ix3 b q k) = val_main_v10 (F := Ideal) x0 x1 x2 x3 (ix2 b q) := by
  rw [val_main_v12_apply, show idx_main_v12 (ix3 b q k) = ix3 b q (0 : Fin 1) from idx_v7 b q k, val_main_v11_apply,
    show idx_main_v11 (ix3 b q (0 : Fin 1)) = ix2 b q from idx_v6 b q]

/-- A normalized weight. -/
theorem v13_apply (x0 x1 : SA.Idx → EReal) (x2 x3 : SW.Idx → EReal) (h0 : IsReal x0) (h1 : IsReal x1) (h2 : IsReal x2)
    (h3 : IsReal x3) (b : Fin 2) (q : Fin 4096) (M : ℝ)
    (hM : val_main_v5 (F := Ideal) x0 x1 x2 x3 (ix2 b q) = (M : EReal)) (k : Fin 4096) :
    val_main_v13 (F := Ideal) x0 x1 x2 x3 (ix3 b q k)
      = Ideal.div (Ideal.exp (((score x0 x1 x2 x3 b q k : ℝ) : EReal) - (M : EReal)))
          (∑ k' : Fin 4096, Ideal.exp (((score x0 x1 x2 x3 b q k' : ℝ) : EReal) - (M : EReal))) := by
  rw [val_main_v13_apply, Ideal.hostDivf_def, v9_apply x0 x1 x2 x3 h0 h1 h2 h3 b q M hM, v12_apply,
    v10_apply x0 x1 x2 x3 h0 h1 h2 h3 b q M hM]

/-! ## The reference is the specification -/

theorem ref_eq (x0 x1 : (⟨Cert.ReferenceIdeal.S2x4096x512, .f32⟩ : BufTy).Contents (Elt Ideal))
    (x2 x3 : (⟨Cert.ReferenceIdeal.S512x512, .f32⟩ : BufTy).Contents (Elt Ideal))
    (h0 : Cert.Attn.IsReal x0) (h1 : Cert.Attn.IsReal x1) (h2 : Cert.Attn.IsReal x2) (h3 : Cert.Attn.IsReal x3) :
    Cert.ReferenceIdeal.Read.val_main_v14 (F := Ideal) x0 x1 x2 x3 = Cert.Attn.G x0 x1 x2 x3 := by
  funext i
  obtain ⟨b, q, e, rfl⟩ : ∃ (b : Fin 2) (q : Fin 4096) (e : Fin 512), i = ix3 b q e := ⟨i 0, i 1, i 2, eq_ix3 i⟩
  obtain ⟨M, hM⟩ := v5_real x0 x1 x2 x3 h0 h1 h2 h3 b q
  rw [G_apply, out, ← shifted_softmax (N := 4096) (by decide) (fun k => score x0 x1 x2 x3 b q k)
    (fun k => (x1 (ix3 b k e)).toReal) M, val_main_v14_apply]
  refine Finset.sum_congr rfl fun k _ => ?_
  rw [lidx_v14, ridx_v14, v13_apply x0 x1 x2 x3 h0 h1 h2 h3 b q M hM, h1.coe_toReal]

end Cert.Attn.Ref

end
-- ==== Proof.Finite.lean ====
/-
  The precondition read back. Each of the four input arrays passes the test "every |x| is below +∞", and the four
  tests are joined by "and"; an extended real whose absolute value max x (−x) is below +∞ is neither −∞ nor +∞, so
  every entry of every input is a real number.
-/
import proofs.«124495_j22789096472738_2_alg».proof.Pre_finite_inputs
import proofs.«124495_j22789096472738_2_alg».proof.Proof.Gen.Pre_finite_inputs
import proofs.«124495_j22789096472738_2_alg».proof.Proof.Spec
import Idealize.ShloMosaic.Lib.ReduceAll

noncomputable section

namespace Cert.Attn

open Idealize.ShloMosaic

/-- The shape of a scalar has exactly one index. -/
instance subsingleton_scalar_idx : Subsingleton Cert.Pre_finite_inputs.S_.Idx := ⟨fun a b => funext fun d => d.elim0⟩

/-- The f32 pattern 0x7F800000 denotes +∞. -/
theorem inf_bits : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test, read back. -/
theorem real_of_cmp (x : EReal) (h : Ideal.cmp .olt (max x (-x)) (Ideal.ofBits .f32 0x7F800000#32) = 1#1) :
    ∃ r : ℝ, x = (r : EReal) := by
  rw [inf_bits] at h
  refine real_of_abs_lt_top x ?_
  by_contra hlt
  have h0 : Ideal.cmp .olt (max x (-x)) ⊤ = 0#1 := by
    show BitVec.ofBool (decide (max x (-x) < ⊤)) = 0#1
    rw [decide_eq_false hlt]
    rfl
  rw [h0] at h
  exact absurd h (by decide)

/-- Under the precondition every entry of the four inputs is a real number: the conjunction gives each array's test,
    each test gives every entry's comparison |x| < +∞, and the comparison excludes −∞ and +∞. -/
theorem isReal_of_pre [Cert.Pre_finite_inputs.Facts] (a0 a1 : FVec Ideal Cert.Pre_finite_inputs.S2x4096x512 .f32)
    (a2 a3 : FVec Ideal Cert.Pre_finite_inputs.S512x512 .f32)
    (h : Cert.Pre_finite_inputs.fn (F := Ideal) a0 a1 a2 a3 = fun _ => 1#1) :
    IsReal a0 ∧ IsReal a1 ∧ IsReal a2 ∧ IsReal a3 := by
  have h0 := congrFun h ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_cmp (a0 i) (Host.reduce_andi_all _ _ _ _ ValueIdx.ix0 e0 i),
    fun i => real_of_cmp (a1 i) (Host.reduce_andi_all _ _ _ _ ValueIdx.ix0 e1 i),
    fun i => real_of_cmp (a2 i) (Host.reduce_andi_all _ _ _ _ ValueIdx.ix0 e2 i),
    fun i => real_of_cmp (a3 i) (Host.reduce_andi_all _ _ _ _ ValueIdx.ix0 e3 i)⟩

end Cert.Attn

end
-- ==== Proof.lean ====
/-
  Attention with unscaled scores and the raw key rows as values: a three-kernel program (two projections, then a
  tile-by-tile running softmax) against softmax(Q Kᵀ) · key written directly, equal over the extended reals on
  finite inputs.

  Both programs compute, at (b, q, e), the quotient Σ_k exp(score b q k) · key[b,k,e] / Σ_k exp(score b q k) with
  score b q k = ⟨(query·W_q)[b,q,:], (key·W_k)[b,k,:]⟩ (`Proof/Spec.lean`): the reference subtracts each row's
  maximum before exponentiating, the kernel the running maximum of the tiles seen so far, rescaling what it has
  accumulated whenever that maximum grows; a softmax does not change when a real number is subtracted from a
  row's scores (`Proof/Softmax.lean`). Finiteness of the inputs is what makes every score a real number — on the
  extended reals the rescaling identities fail at the infinities — and it is read off the precondition in
  `Proof/Finite.lean`. The kernel's side is `Proof/Bridge.lean` over `Proof/KernelRun.lean` (the run, with the
  result buffer named) and `Proof/Region2*.lean` (the attention body); the reference's side is `Proof/RefValue.lean`
  over its generated run. The three frames are the generated ones, and the idealization rewrote nothing.
-/
import proofs.«124495_j22789096472738_2_alg».proof.Defs
import proofs.«124495_j22789096472738_2_alg».proof.Proof.Gen.Kernel
import proofs.«124495_j22789096472738_2_alg».proof.Proof.Gen.Kernel.Skeleton
import proofs.«124495_j22789096472738_2_alg».proof.Proof.Gen.Kernel.Loops
import proofs.«124495_j22789096472738_2_alg».proof.Proof.Gen.Kernel.Launch
import proofs.«124495_j22789096472738_2_alg».proof.Proof.Gen.Kernel.Points
import proofs.«124495_j22789096472738_2_alg».proof.Proof.Gen.Kernel.Frame
import proofs.«124495_j22789096472738_2_alg».proof.Proof.Gen.KernelIdeal
import proofs.«124495_j22789096472738_2_alg».proof.Proof.Gen.KernelIdeal.Skeleton
import proofs.«124495_j22789096472738_2_alg».proof.Proof.Gen.KernelIdeal.Loops
import proofs.«124495_j22789096472738_2_alg».proof.Proof.Gen.KernelIdeal.Launch
import proofs.«124495_j22789096472738_2_alg».proof.Proof.Gen.KernelIdeal.Points
import proofs.«124495_j22789096472738_2_alg».proof.Proof.Gen.KernelIdeal.Frame
import proofs.«124495_j22789096472738_2_alg».proof.Proof.Gen.ReferenceIdeal
import proofs.«124495_j22789096472738_2_alg».proof.Proof.Gen.Pre_finite_inputs
import proofs.«124495_j22789096472738_2_alg».proof.Proof.Gen.ReferenceIdeal.Run
import proofs.«124495_j22789096472738_2_alg».proof.Proof.Gen.ReferenceIdeal.Read
import proofs.«124495_j22789096472738_2_alg».proof.Proof.KernelRun
import proofs.«124495_j22789096472738_2_alg».proof.Proof.Bridge
import proofs.«124495_j22789096472738_2_alg».proof.Proof.RefValue
import proofs.«124495_j22789096472738_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments both programs end with the specification's array in their result. -/
theorem algebraic : Cert.algebraic_KernelIdeal_ReferenceIdeal := by
  intro m ρ m' ρ' hpre hagree
  have hfin := fun c => Cert.Attn.isReal_of_pre _ _ _ _ (hpre c)
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Attn.Bridge.kernel_value m ρ c (hfin c).1 (hfin c).2.1 (hfin c).2.2.1 (hfin c).2.2.2), (h c).2⟩)
      (Cert.Attn.Run.run_value (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v14_eq, (hagree c).1, (hagree c).2.1, (hagree c).2.2.1, (hagree c).2.2.2]
    exact Cert.Attn.Ref.ref_eq _ _ _ _ (hfin c).1 (hfin c).2.1 (hfin c).2.2.1 (hfin c).2.2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
